-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x32x64 : Shape := ⟨4, ![8, 4096, 32, 64]⟩
abbrev S_ : Shape := ⟨0, ![]⟩

class Facts : Prop where
  bcast_S_S8x4096x32x64 : S_.BroadcastsInDim S8x4096x32x64 (![] : Fin 0 → Fin S8x4096x32x64.rank)
  reducesTo_S8x4096x32x64_S_d0_1_2_3 : S8x4096x32x64.ReducesTo [0, 1, 2, 3] S_
  h_S_ : 0 < S_.numel

variable [Facts]

def fn {F : FTy → Type} [FloatOps F] (main_arg0 : FVec F S8x4096x32x64 .f32) (main_arg1 : IVec S8x4096x32x64 32) : IVec S_ 1 :=
  let main_v0 : FVec F S8x4096x32x64 .f32 := Host.absf main_arg0
  let main_cst : FVec F S_ .f32 := constant S_ .f32 0x7F800000#32
  let main_v1 : FVec F S8x4096x32x64 .f32 := broadcastInDim S8x4096x32x64 ![] bcast_S_S8x4096x32x64 main_cst
  let main_v2 : IVec S8x4096x32x64 1 := cmpf .olt main_v0 main_v1
  let main_c : IVec S_ 1 := constantI S_ 1 1#1
  let main_v3 : IVec S_ 1 := (fun x v => Host.reduce IntOp.andi x v reducesTo_S8x4096x32x64_S_d0_1_2_3 h_S_) main_v2 main_c
  main_v3
-- ==== Kernel.lean ====
abbrev S8x4096x32x64 : Shape := ⟨4, ![8, 4096, 32, 64]⟩
abbrev S8x4096x2048 : Shape := ⟨3, ![8, 4096, 2048]⟩
abbrev S8x1x2048 : Shape := ⟨3, ![8, 1, 2048]⟩
abbrev S1x1024x2048 : Shape := ⟨3, ![1, 1024, 2048]⟩
abbrev S1x1x2048 : Shape := ⟨3, ![1, 1, 2048]⟩
abbrev S1x2048 : Shape := ⟨2, ![1, 2048]⟩
abbrev S1x2048x2048 : Shape := ⟨3, ![1, 2048, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8x4096x32x64, .f32⟩
  | .hbm, ⟨1, _⟩ => ⟨S8x4096x32x64, .i32⟩
  | .hbm, ⟨2, _⟩ => ⟨S8x4096x2048, .f32⟩
  | .hbm, ⟨3, _⟩ => ⟨S8x4096x2048, .i32⟩
  | .hbm, ⟨4, _⟩ => ⟨S8x1x2048, .f32⟩
  | .hbm, ⟨5, _⟩ => ⟨S8x4096x2048, .f32⟩
  | .hbm, ⟨6, _⟩ => ⟨S8x4096x32x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .i32⟩
  | .local _ .vmem, ⟨3, _⟩ => ⟨S1x1024x2048, .i32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x2048, .f32⟩
  | .local _ .vmem, ⟨11, _⟩ => ⟨S1x2048x2048, .f32⟩
  | _, _ => ⟨S8x4096x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_19 : BitVec 32 := 0#32
  let v25 : BitVec 1 := Scalar.cmpi .ne v24 c0_i32_19
  v25

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x2048x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

class Facts₀ : Prop where
  shapeCasts_S8x4096x32x64_S8x4096x2048 : S8x4096x32x64.ShapeCasts S8x4096x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1x1024x2048 : S1x1024x2048.ShapeCasts S1x1024x2048
  reduces_S1x1024x2048_S1x2048 : S1x1024x2048.Reduces [1] S1x2048
  shapeCasts_S1x2048_S1x1x2048 : S1x2048.ShapeCasts S1x1x2048
  broadcasts_S1x1x2048_S1x2048x2048 : S1x1x2048.Broadcasts S1x2048x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S8x4096x2048_S8x4096x32x64 : S8x4096x2048.ShapeCasts S8x4096x32x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x4096x2048.size a
  hwx0_1 : ∀ i : grid0.Coords, EltTy.bits .i32 = 32 ∨ (Rect.block (s := S8x4096x2048) S1x1024x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S8x1x2048.size a
  hwx0_2 : ∀ i : grid0.Coords, EltTy.bits .f32 = 32 ∨ (Rect.block (s := S8x1x2048) S1x1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048.size a ≤ S8x1x2048.size a
  hwx1_0 : ∀ i : grid1.Coords, EltTy.bits .f32 = 32 ∨ (Rect.block (s := S8x1x2048) S1x1x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x2048.size a ≤ S8x4096x2048.size a
  hwx1_1 : ∀ i : grid1.Coords, EltTy.bits .f32 = 32 ∨ (Rect.block (s := S8x4096x2048) S1x2048x2048.size (cc1_transform_1 i) (hinb1_1 i)).WholeWords (EltTy.packing .f32)

variable [Facts₀]

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v2) S1x1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2048x2048.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8x4096x32x64 : Shape := ⟨4, ![8, 4096, 32, 64]⟩
abbrev S_ : Shape := ⟨0, ![]⟩
abbrev S8x32x64 : Shape := ⟨3, ![8, 32, 64]⟩
abbrev S8x1x32x64 : Shape := ⟨4, ![8, 1, 32, 64]⟩

abbrev nBuf : Space → Nat
  | .hbm => 20
  | .vmem => 0
  | .smem => 0
  | _ => 0

abbrev bufTy : (tb : Table) → Fin (tcTables nBuf tb) → BufTy
  | .hbm, ⟨0, _⟩ => ⟨S8x4096x32x64, .f32⟩
  | .hbm, ⟨1, _⟩ => ⟨S8x4096x32x64, .i32⟩
  | .hbm, ⟨2, _⟩ => ⟨S8x4096x32x64, .f32⟩
  | .hbm, ⟨3, _⟩ => ⟨S8x4096x32x64, .f32⟩
  | .hbm, ⟨4, _⟩ => ⟨S_, .f32⟩
  | .hbm, ⟨5, _⟩ => ⟨S8x32x64, .f32⟩
  | .hbm, ⟨6, _⟩ => ⟨S_, .f32⟩
  | .hbm, ⟨7, _⟩ => ⟨S8x32x64, .f32⟩
  | .hbm, ⟨8, _⟩ => ⟨S_, .f32⟩
  | .hbm, ⟨9, _⟩ => ⟨S8x32x64, .f32⟩
  | .hbm, ⟨10, _⟩ => ⟨S8x32x64, .i1⟩
  | .hbm, ⟨11, _⟩ => ⟨S_, .f32⟩
  | .hbm, ⟨12, _⟩ => ⟨S8x32x64, .f32⟩
  | .hbm, ⟨13, _⟩ => ⟨S8x32x64, .f32⟩
  | .hbm, ⟨14, _⟩ => ⟨S8x32x64, .f32⟩
  | .hbm, ⟨15, _⟩ => ⟨S_, .f32⟩
  | .hbm, ⟨16, _⟩ => ⟨S8x32x64, .f32⟩
  | .hbm, ⟨17, _⟩ => ⟨S8x32x64, .f32⟩
  | .hbm, ⟨18, _⟩ => ⟨S8x1x32x64, .f32⟩
  | .hbm, ⟨19, _⟩ => ⟨S8x4096x32x64, .f32⟩
  | _, _ => ⟨S8x4096x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S8x4096x32x64_S8x32x64_d1 : S8x4096x32x64.ReducesTo [1] S8x32x64
  h_S_ : 0 < S_.numel
  bcast_S_S8x32x64 : S_.BroadcastsInDim S8x32x64 (![] : Fin 0 → Fin S8x32x64.rank)
  bcast_S8x32x64_S8x1x32x64_0_2_3 : S8x32x64.BroadcastsInDim S8x1x32x64 (![0, 2, 3] : Fin 3 → Fin S8x1x32x64.rank)
  bcast_S8x1x32x64_S8x4096x32x64_0_1_2_3 : S8x1x32x64.BroadcastsInDim S8x4096x32x64 (![0, 1, 2, 3] : Fin 4 → Fin S8x4096x32x64.rank)

variable [Facts₀]

class Facts : Prop extends Facts₀ where

variable [Facts]
-- ==== Proof.Bits.ReduceShared.lean ====
/-
  The first pallas_call (the reduction kernel): what its three runs share. The grid is (b, l) with 8 batches and
  4 steps along the sequence, point t = 4 b + l. At l = 0 the body zeroes its two scratch rows (the running
  masked sum and the running count); at every point it adds the block's column sums to them; at l = 3 it
  divides and stores the mean row into the output window. So a point is in one of three cases by l:
  first (l = 0), middle (l = 1, 2), last (l = 3). The output window is idle, and not written back, unless l = 3.
-/
import proofs.«131441_j11166914970000_2_alg».proof.Proof.Gen.Kernel.Launch
import proofs.«131441_j11166914970000_2_alg».proof.Proof.Gen.Kernel.Skeleton
import proofs.«131441_j11166914970000_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The values' staging buffer holds the point's block of x. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask's staging buffer holds the point's block of the mask. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- "This is the first step of a batch" (l = 0), as the kernel computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step of a batch" (l = 3), as the kernel computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is live. -/
theorem liveAt0_2 : ∀ t : Fin cfg0.N, cond0_1 (grid0.coords t) → cfg0.idle 2 (grid0.coords t) = false := by decide +kernel

/-! ## The memrefs the body is called with -/

abbrev VO0_2 : View sig .tc .vmem S1x1x2048 .f32 := (Memref.whole cc0_stg2_0 : Memref sig .tc .vmem S1x1x2048 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
/-- The two scratch rows: the running masked sum and the running count. -/
abbrev scM0_0 : Memref sig .tc .vmem S1x1x2048 .f32 := Memref.whole cc0_scratch0
abbrev scM0_1 : Memref sig .tc .vmem S1x1x2048 .f32 := Memref.whole cc0_scratch1
abbrev VS0_0 : View sig .tc .vmem S1x1x2048 .f32 := scM0_0.view
abbrev VS0_1 : View sig .tc .vmem S1x1x2048 .f32 := scM0_1.view

/-- The core's scoped buffers that this kernel never touches (the other pallas_call's staging buffers), each at
    some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's plain invariant with the two scratch rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped c) ∗ (∃ r, prngReg c r)) := by
  unfold Pipeline.ΦA otherScoped; rw [scopedRest0_eq]; simp only [scM0_0, scM0_1, owns_whole]; try rfl

end Cert.Kernel.Hand

end
-- ==== Proof.Bits.ReduceFirst.lean ====
/-
  The reduction kernel's body at the FIRST step of a batch (l = 0): the two scratch rows, found at anything, are
  zeroed, then the block's masked column sums and mask column sums are added to them; the output window is not
  touched. The pieces the scratch rows end with are found by running the body.
-/
import proofs.«131441_j11166914970000_2_alg».proof.Proof.Gen.Kernel.Launch
import proofs.«131441_j11166914970000_2_alg».proof.Proof.Gen.Kernel.Skeleton
import proofs.«131441_j11166914970000_2_alg».proof.Proof.Gen.Kernel.Points
import proofs.«131441_j11166914970000_2_alg».proof.Proof.Bits.ReduceShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 : Vec F S1x1024x2048 .f32) (x1 : Vec F S1x1024x2048 .i32) :
    Σ' (L2 : List (View.Piece (Elt F) S1x1x2048 .f32)) (LS0 : List (View.Piece (Elt F) S1x1x2048 .f32)), { LS1 : List (View.Piece (Elt F) S1x1x2048 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨[], ?_, ?_, fun xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.Bits.ReduceMiddle.lean ====
/-
  The reduction kernel's body at a MIDDLE step of a batch (l = 1, 2): the two scratch rows, found at what the step
  before left, get the block's masked column sums and mask column sums added; the output window is not touched.
-/
import proofs.«131441_j11166914970000_2_alg».proof.Proof.Gen.Kernel.Launch
import proofs.«131441_j11166914970000_2_alg».proof.Proof.Gen.Kernel.Skeleton
import proofs.«131441_j11166914970000_2_alg».proof.Proof.Gen.Kernel.Points
import proofs.«131441_j11166914970000_2_alg».proof.Proof.Bits.ReduceShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 : Vec F S1x1024x2048 .f32) (x1 : Vec F S1x1024x2048 .i32) (xs0 xs1 : Vec F S1x1x2048 .f32) :
    Σ' (L2 : List (View.Piece (Elt F) S1x1x2048 .f32)) (LS0 : List (View.Piece (Elt F) S1x1x2048 .f32)), { LS1 : List (View.Piece (Elt F) S1x1x2048 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨[], ?_, ?_, fun xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.Kernel.Hand

end
-- ==== Proof.Bits.ReduceLast.lean ====
/-
  The reduction kernel's body at the LAST step of a batch (l = 3): the two scratch rows, found at what the step
  before left, get the block's sums added, and then the mean row — the sum over the count where the count is
  positive, zero elsewhere — is stored over the whole output window, found at anything.
-/
import proofs.«131441_j11166914970000_2_alg».proof.Proof.Gen.Kernel.Launch
import proofs.«131441_j11166914970000_2_alg».proof.Proof.Gen.Kernel.Skeleton
import proofs.«131441_j11166914970000_2_alg».proof.Proof.Gen.Kernel.Points
import proofs.«131441_j11166914970000_2_alg».proof.Proof.Bits.ReduceShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) :
    Σ' (L2 : List (View.Piece (Elt F) S1x1x2048 .f32)) (LS0 : List (View.Piece (Elt F) S1x1x2048 .f32)), { LS1 : List (View.Piece (Elt F) S1x1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.Bits.Reduce.lean ====
/-
  The reduction kernel over its whole grid. What the two scratch rows (running masked sum, running count) and the
  output window's staging buffer hold after the body at each grid point is defined by recursion on the point:
  a first step starts the rows afresh, a middle or last step continues from what the point before left, and only a
  last step writes the output window. The region invariant carries the two scratch rows at exactly those contents
  from one point to the next; with it the body obligation holds at every point, case by case.
-/
import proofs.«131441_j11166914970000_2_alg».proof.Proof.Gen.Kernel.Launch
import proofs.«131441_j11166914970000_2_alg».proof.Proof.Gen.Kernel.Skeleton
import proofs.«131441_j11166914970000_2_alg».proof.Proof.Gen.Kernel.Points
import proofs.«131441_j11166914970000_2_alg».proof.Proof.Bits.ReduceFirst
import proofs.«131441_j11166914970000_2_alg».proof.Proof.Bits.ReduceMiddle
import proofs.«131441_j11166914970000_2_alg».proof.Proof.Bits.ReduceLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each run's stores cover the row they are made into -/

/-- At a first step the stores into the running sum cover its row. -/
theorem scover0_A_0 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 : Vec F S1x1024x2048 .f32) (x1 : Vec F S1x1024x2048 .i32) (y : S1x1x2048.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1x2048.size (by sl_kernel_rfl) y

/-- At a first step the stores into the running count cover its row. -/
theorem scover0_A_1 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 : Vec F S1x1024x2048 .f32) (x1 : Vec F S1x1024x2048 .i32) (y : S1x1x2048.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1x2048.size (by sl_kernel_rfl) y

/-- At a middle step the store into the running sum covers its row. -/
theorem scover0_B_0 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 : Vec F S1x1024x2048 .f32) (x1 : Vec F S1x1024x2048 .i32) (xs0 xs1 : Vec F S1x1x2048 .f32) (y : S1x1x2048.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1x1x2048.size (by sl_kernel_rfl) y

/-- At a middle step the store into the running count covers its row. -/
theorem scover0_B_1 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 : Vec F S1x1024x2048 .f32) (x1 : Vec F S1x1024x2048 .i32) (xs0 xs1 : Vec F S1x1x2048 .f32) (y : S1x1x2048.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x1x2048.size (by sl_kernel_rfl) y

/-- At a last step the store into the running sum covers its row. -/
theorem scover0_C_0 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1x1x2048.size (by sl_kernel_rfl) y

/-- At a last step the store into the running count covers its row. -/
theorem scover0_C_1 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1x1x2048.size (by sl_kernel_rfl) y

/-- At a last step the store of the mean covers the output window's row. -/
theorem cover0_C_2 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x1x2048.size (by sl_kernel_rfl) y

/-! ## What a point leaves: (output window, running sum, running count) -/

/-- A row nothing consults: what stands for the output window's contents at the points that do not store into it. -/
def idleRow : Vec F S1x1x2048 .f32 := VO0_2.read (Elt F) VO0_2.junk

/-- After a first step at point `t`. -/
def afterFirst (c : Dev nD) (t : Fin cfg0.N) (h0 : t.val % 4 = 0) (h1 : ¬t.val % 4 = 3)
    (x0 : Vec F S1x1024x2048 .f32) (x1 : Vec F S1x1024x2048 .i32) : Vec F S1x1x2048 .f32 × Vec F S1x1x2048 .f32 × Vec F S1x1x2048 .f32 :=
  (idleRow,
   VS0_0.read (Elt F) (VS0_0.writes (Elt F) VS0_0.junk (kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) x0 x1).2.1),
   VS0_1.read (Elt F) (VS0_1.writes (Elt F) VS0_1.junk (kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) x0 x1).2.2.1))

/-- After a middle step at point `t`, from the rows `xs0`, `xs1` the point before left. -/
def afterMiddle (c : Dev nD) (t : Fin cfg0.N) (h0 : ¬t.val % 4 = 0) (h1 : ¬t.val % 4 = 3)
    (x0 : Vec F S1x1024x2048 .f32) (x1 : Vec F S1x1024x2048 .i32) (xs0 xs1 : Vec F S1x1x2048 .f32) : Vec F S1x1x2048 .f32 × Vec F S1x1x2048 .f32 × Vec F S1x1x2048 .f32 :=
  (idleRow,
   VS0_0.read (Elt F) (VS0_0.writes (Elt F) VS0_0.junk (kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) x0 x1 xs0 xs1).2.1),
   VS0_1.read (Elt F) (VS0_1.writes (Elt F) VS0_1.junk (kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) x0 x1 xs0 xs1).2.2.1))

/-- After a last step at point `t`, from the rows `xs0`, `xs1` the point before left. -/
def afterLast (c : Dev nD) (t : Fin cfg0.N) (h0 : ¬t.val % 4 = 0) (h1 : t.val % 4 = 3)
    (x0 : Vec F S1x1024x2048 .f32) (x1 : Vec F S1x1024x2048 .i32) (xs0 xs1 : Vec F S1x1x2048 .f32) : Vec F S1x1x2048 .f32 × Vec F S1x1x2048 .f32 × Vec F S1x1x2048 .f32 :=
  (VO0_2.read (Elt F) (VO0_2.writes (Elt F) VO0_2.junk (kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) x0 x1 xs0 xs1).1),
   VS0_0.read (Elt F) (VS0_0.writes (Elt F) VS0_0.junk (kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) x0 x1 xs0 xs1).2.1),
   VS0_1.read (Elt F) (VS0_1.writes (Elt F) VS0_1.junk (kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) x0 x1 xs0 xs1).2.2.1))

/-- THE ACCUMULATION: what the output window's staging buffer and the two scratch rows hold after the body at
    position `n`, by recursion on the position. -/
def accAt0 (c : Dev nD) : (n : ℕ) → n < cfg0.N → Vec F S1x1x2048 .f32 × Vec F S1x1x2048 .f32 × Vec F S1x1x2048 .f32
  | 0, hn => afterFirst c ⟨0, hn⟩ (Nat.zero_mod _) (by show ¬ ((0 : ℕ) % 4 = 3); decide) (iblk0 V c 0 ⟨0, hn⟩) (iblk0 V c 1 ⟨0, hn⟩)
  | n + 1, hn =>
    if h0 : (n + 1) % 4 = 0 then
      afterFirst c ⟨n + 1, hn⟩ h0 (by show ¬ ((n + 1) % 4 = 3); omega) (iblk0 V c 0 ⟨n + 1, hn⟩) (iblk0 V c 1 ⟨n + 1, hn⟩)
    else if h1 : (n + 1) % 4 = 3 then
      afterLast c ⟨n + 1, hn⟩ h0 h1 (iblk0 V c 0 ⟨n + 1, hn⟩) (iblk0 V c 1 ⟨n + 1, hn⟩) (accAt0 c n (Nat.lt_of_succ_lt hn)).2.1 (accAt0 c n (Nat.lt_of_succ_lt hn)).2.2
    else
      afterMiddle c ⟨n + 1, hn⟩ h0 h1 (iblk0 V c 0 ⟨n + 1, hn⟩) (iblk0 V c 1 ⟨n + 1, hn⟩) (accAt0 c n (Nat.lt_of_succ_lt hn)).2.1 (accAt0 c n (Nat.lt_of_succ_lt hn)).2.2

theorem accAt0_first (c : Dev nD) (t : Fin cfg0.N) (h0 : t.val % 4 = 0) (h1 : ¬t.val % 4 = 3) :
    accAt0 V c t.val t.isLt = afterFirst c t h0 h1 (iblk0 V c 0 t) (iblk0 V c 1 t) := by
  obtain ⟨n, hn⟩ := t
  cases n with
  | zero => exact rfl
  | succ n => exact (dif_pos h0).trans rfl

theorem accAt0_middle (c : Dev nD) (t : Fin cfg0.N) (h0 : ¬t.val % 4 = 0) (h1 : ¬t.val % 4 = 3) :
    accAt0 V c t.val t.isLt = afterMiddle c t h0 h1 (iblk0 V c 0 t) (iblk0 V c 1 t)
      (accAt0 V c (t.val - 1) (Nat.lt_of_le_of_lt (Nat.sub_le _ _) t.isLt)).2.1 (accAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem accAt0_last (c : Dev nD) (t : Fin cfg0.N) (h0 : ¬t.val % 4 = 0) (h1 : t.val % 4 = 3) :
    accAt0 V c t.val t.isLt = afterLast c t h0 h1 (iblk0 V c 0 t) (iblk0 V c 1 t)
      (accAt0 V c (t.val - 1) (Nat.lt_of_le_of_lt (Nat.sub_le _ _) t.isLt)).2.1 (accAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant: the scratch rows carried from point to point -/

/-- Before position `n`: at the region's entry the plain invariant (every scoped buffer at anything); afterwards
    the two scratch rows at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((accAt0 V c n hn).2.1) ∗ owns (c : Thread nD τ) scM0_1 fullShare ((accAt0 V c n hn).2.2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((accAt0 V c n hn).2.1) ∗ owns (c : Thread nD τ) scM0_1 fullShare ((accAt0 V c n hn).2.2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0_0 fullShare ((accAt0 V c (n - 1) (by omega)).2.1) ∗ owns (c : Thread nD τ) scM0_1 fullShare ((accAt0 V c (n - 1) (by omega)).2.2) ∗ otherScoped c) ∗ (∃ r, prngReg c r)) := by
  cases n with
  | zero => exact absurd rfl hz
  | succ n => rfl

/-! ## The pipeline's proof data -/

/-- The proof data of the first pipeline on core `c`: the arrays as the region finds them; after the body at point
    `t` each input's buffer at its block and the output's at the accumulation's first component; the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; which case the point is in is decided by its
    position mod 4; the invariant hands the body the two scratch rows at what the point before left (at anything at
    the very first point, and a first step does not care) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [accAt0_first V c t h0 h1]
    unfold afterFirst; (try dsimp only)
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [accAt0_last V c t h0 h1]
      unfold afterLast; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [accAt0_middle V c t h0 h1]
      unfold afterMiddle; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          iexact Hrest
        iexact Hg
      isplitl [Ho]; · iexact Ho
      isplitl [H0]; · iexact H0
      isplitl [H1]; · iexact H1
      iexists _; iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the scratch rows' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.Kernel.Hand

end
-- ==== Proof.Bits.Broadcast.lean ====
/-
  The second pallas_call (the broadcast kernel) on its own: at any contents `V` of the core's buffers when the
  region is entered, the body at a grid point (b, l) loads the one row [1,1,2048] of the mean that belongs to
  batch b and stores it 2048 times, as the block [1,2048,2048] of the output. The kernel keeps nothing between
  points, so what the output's staging buffer holds after the body is a function of the input block alone.
-/
import proofs.«131441_j11166914970000_2_alg».proof.Proof.Gen.Kernel.Launch
import proofs.«131441_j11166914970000_2_alg».proof.Proof.Gen.Kernel.Skeleton
import proofs.«131441_j11166914970000_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The mean's staging buffer holds the row of the point's batch at every point, fetched there or not: between
    two points of one batch the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole row of the mean, and the whole block of the output: the two rectangles the body touches. -/
abbrev rowRect : Rect S1x1x2048 := Rect.unit (s := S1x1x2048) ![0, 0, 0] S1x1x2048.size inb_S1x1x2048_S1x1x2048_0_0_0
abbrev outRect : Rect S1x2048x2048 := Rect.unit (s := S1x2048x2048) ![0, 0, 0] S1x2048x2048.size inb_S1x2048x2048_S1x2048x2048_0_0_0

/-- What the body leaves in the output's staging buffer: its one store, of the row repeated along the second axis. -/
def out1_1 (x0 : Vec F S1x1x2048 .f32) : Vec F S1x2048x2048 .f32 :=
  View.canon [⟨outRect, k1_pay1 (View.ld x0 rowRect)⟩]

/-- That one store covers the block. -/
theorem cover1_1 (p0 : Vec F S1x2048x2048 .f32) (y : S1x2048x2048.Idx) :
    ∃ pc ∈ ([⟨outRect, p0⟩] : List (View.Piece (Elt F) S1x2048x2048 .f32)), y ∈ pc.1.set :=
  View.cover_of_tiled [⟨outRect, p0⟩] S1x2048x2048.size (by rfl) y

set_option maxHeartbeats 1000000 in
/-- The body on whole staging buffers, the input's at contents `x0` and the output's at anything, runs to the
    continuation with the input's unchanged and the output's at `out1_1 x0`. -/
theorem sound_kernel1 (c : Dev nD) (E : Set ℕ) (i : grid1.Coords) (arg2 : Memref sig .tc .vmem S1x1x2048 .f32) (harg2 : arg2.IsWhole) (arg3 : Memref sig .tc .vmem S1x2048x2048 .f32) (harg3 : arg3.IsWhole)
    (x0 : Vec F S1x1x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__broadcast_kernel i arg2 harg2 arg3 harg3) K := by
  simp only [cc1__broadcast_kernel_eq_skeleton]; unfold cc1__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the second pipeline on core `c`: the arrays as the region finds them; after the body at
    point `t` the input's buffer at its block and the output's at `out1_1` of it; nothing kept between points,
    nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
/-
  The whole program: two reshapes on the host, the reduction kernel, the broadcast kernel, one reshape on the
  host. The contents of the core's unscoped buffers are followed from the launch through the four segments: a host
  stretch applies its operations; a kernel region leaves its windows' arrays at what its write-backs produce and
  every other buffer as it found it. Every weakly fair execution terminates, and the final memory holds, at every
  unscoped buffer, the last of these contents. From that: the argument arrays end as launched (the frame), and the
  result array ends at the last reshape of what the broadcast kernel wrote.
-/
import proofs.«131441_j11166914970000_2_alg».proof.Proof.Gen.Kernel.Launch
import proofs.«131441_j11166914970000_2_alg».proof.Proof.Gen.Kernel.Skeleton
import proofs.«131441_j11166914970000_2_alg».proof.Proof.Gen.Kernel.Points
import proofs.«131441_j11166914970000_2_alg».proof.Proof.Bits.Reduce
import proofs.«131441_j11166914970000_2_alg».proof.Proof.Bits.Broadcast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the two reshapes (the reduction kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the reduction kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the broadcast kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ### No segment writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The two kernels as segments -/

set_option backward.isDefEq.respectTransparency.types false in
/-- The reduction kernel's region: entered with every unscoped buffer at `W1`, left at `W2`. The generator register
    and the scoped buffers go into the region's invariant — which from the first point on carries the two scratch
    rows at named contents — and come back out of it after the last point. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none]
    rw [show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The broadcast kernel's region: entered with every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and the final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.Kernel.Hand

end
-- ==== Proof.Ideal.ReduceShared.lean ====
/-
  The first pallas_call (the reduction kernel): what its three runs share. The grid is (b, l) with 8 batches and
  4 steps along the sequence, point t = 4 b + l. At l = 0 the body zeroes its two scratch rows (the running
  masked sum and the running count); at every point it adds the block's column sums to them; at l = 3 it
  divides and stores the mean row into the output window. So a point is in one of three cases by l:
  first (l = 0), middle (l = 1, 2), last (l = 3). The output window is idle, and not written back, unless l = 3.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The values' staging buffer holds the point's block of x. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask's staging buffer holds the point's block of the mask. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions, decided over the grid -/

/-- "This is the first step of a batch" (l = 0), as the kernel computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last step of a batch" (l = 3), as the kernel computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last step the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last step it is live. -/
theorem liveAt0_2 : ∀ t : Fin cfg0.N, cond0_1 (grid0.coords t) → cfg0.idle 2 (grid0.coords t) = false := by decide +kernel

/-! ## The memrefs the body is called with -/

abbrev VO0_2 : View sig .tc .vmem S1x1x2048 .f32 := (Memref.whole cc0_stg2_0 : Memref sig .tc .vmem S1x1x2048 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x2048 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
/-- The two scratch rows: the running masked sum and the running count. -/
abbrev scM0_0 : Memref sig .tc .vmem S1x1x2048 .f32 := Memref.whole cc0_scratch0
abbrev scM0_1 : Memref sig .tc .vmem S1x1x2048 .f32 := Memref.whole cc0_scratch1
abbrev VS0_0 : View sig .tc .vmem S1x1x2048 .f32 := scM0_0.view
abbrev VS0_1 : View sig .tc .vmem S1x1x2048 .f32 := scM0_1.view

/-- The core's scoped buffers that this kernel never touches (the other pallas_call's staging buffers), each at
    some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The region's plain invariant with the two scratch rows as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped c) ∗ (∃ r, prngReg c r)) := by
  unfold Pipeline.ΦA otherScoped; rw [scopedRest0_eq]; simp only [scM0_0, scM0_1, owns_whole]; try rfl

end Cert.KernelIdeal.Hand

end
-- ==== Proof.Ideal.ReduceFirst.lean ====
/-
  The reduction kernel's body at the FIRST step of a batch (l = 0): the two scratch rows, found at anything, are
  zeroed, then the block's masked column sums and mask column sums are added to them; the output window is not
  touched. The pieces the scratch rows end with are found by running the body.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.ReduceShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 : Vec F S1x1024x2048 .f32) (x1 : Vec F S1x1024x2048 .i32) :
    Σ' (L2 : List (View.Piece (Elt F) S1x1x2048 .f32)) (LS0 : List (View.Piece (Elt F) S1x1x2048 .f32)), { LS1 : List (View.Piece (Elt F) S1x1x2048 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨[], ?_, ?_, fun xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.Ideal.ReduceMiddle.lean ====
/-
  The reduction kernel's body at a MIDDLE step of a batch (l = 1, 2): the two scratch rows, found at what the step
  before left, get the block's masked column sums and mask column sums added; the output window is not touched.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.ReduceShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 : Vec F S1x1024x2048 .f32) (x1 : Vec F S1x1024x2048 .i32) (xs0 xs1 : Vec F S1x1x2048 .f32) :
    Σ' (L2 : List (View.Piece (Elt F) S1x1x2048 .f32)) (LS0 : List (View.Piece (Elt F) S1x1x2048 .f32)), { LS1 : List (View.Piece (Elt F) S1x1x2048 .f32) //
      ∀ (xi2 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare xi2
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ owns (c : Thread nD τ) arg4 fullShare xi2
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨[], ?_, ?_, fun xi2 E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    iexists _; iexact HS1

end Cert.KernelIdeal.Hand

end
-- ==== Proof.Ideal.ReduceLast.lean ====
/-
  The reduction kernel's body at the LAST step of a batch (l = 3): the two scratch rows, found at what the step
  before left, get the block's sums added, and then the mean row — the sum over the count where the count is
  positive, zero elsewhere — is stored over the whole output window, found at anything.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.ReduceShared
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) :
    Σ' (L2 : List (View.Piece (Elt F) S1x1x2048 .f32)) (LS0 : List (View.Piece (Elt F) S1x1x2048 .f32)), { LS1 : List (View.Piece (Elt F) S1x1x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__reduce_kernel i arg2 harg2 arg3 harg3 arg4 harg4 arg5 harg5 arg6 harg6) K } := by
  refine ⟨?_, ?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1
    obtain rfl := harg5.eq_unread hfs0; obtain rfl := harg6.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.Ideal.Reduce.lean ====
/-
  The reduction kernel over its whole grid. What the two scratch rows (running masked sum, running count) and the
  output window's staging buffer hold after the body at each grid point is defined by recursion on the point:
  a first step starts the rows afresh, a middle or last step continues from what the point before left, and only a
  last step writes the output window. The region invariant carries the two scratch rows at exactly those contents
  from one point to the next; with it the body obligation holds at every point, case by case.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.ReduceFirst
import proofs.«131441_j11166914970000_2_alg».proof.Proof.Ideal.ReduceMiddle
import proofs.«131441_j11166914970000_2_alg».proof.Proof.Ideal.ReduceLast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each run's stores cover the row they are made into -/

/-- At a first step the stores into the running sum cover its row. -/
theorem scover0_A_0 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 : Vec F S1x1024x2048 .f32) (x1 : Vec F S1x1024x2048 .i32) (y : S1x1x2048.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S1x1x2048.size (by sl_kernel_rfl) y

/-- At a first step the stores into the running count cover its row. -/
theorem scover0_A_1 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 : Vec F S1x1024x2048 .f32) (x1 : Vec F S1x1024x2048 .i32) (y : S1x1x2048.Idx) :
    ∃ pc ∈ (kernelRun0_A c i arg2 harg2 arg3 harg3 arg4 harg4 arg5 harg5 arg6 harg6 hc0 hc1 x0 x1).2.2.1, y ∈ pc.1.set :=
  View.cover_of_tiledL (kernelRun0_A c i arg2 harg2 arg3 harg3 arg4 harg4 arg5 harg5 arg6 harg6 hc0 hc1 x0 x1).2.2.1 S1x1x2048.size (by sl_kernel_rfl) y

/-- At a middle step the store into the running sum covers its row. -/
theorem scover0_B_0 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 : Vec F S1x1024x2048 .f32) (x1 : Vec F S1x1024x2048 .i32) (xs0 xs1 : Vec F S1x1x2048 .f32) (y : S1x1x2048.Idx) :
    ∃ pc ∈ (kernelRun0_B c i arg2 harg2 arg3 harg3 arg4 harg4 arg5 harg5 arg6 harg6 hc0 hc1 x0 x1 xs0 xs1).2.1, y ∈ pc.1.set :=
  View.cover_of_tiledL (kernelRun0_B c i arg2 harg2 arg3 harg3 arg4 harg4 arg5 harg5 arg6 harg6 hc0 hc1 x0 x1 xs0 xs1).2.1 S1x1x2048.size (by sl_kernel_rfl) y

/-- At a middle step the store into the running count covers its row. -/
theorem scover0_B_1 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 : Vec F S1x1024x2048 .f32) (x1 : Vec F S1x1024x2048 .i32) (xs0 xs1 : Vec F S1x1x2048 .f32) (y : S1x1x2048.Idx) :
    ∃ pc ∈ (kernelRun0_B c i arg2 harg2 arg3 harg3 arg4 harg4 arg5 harg5 arg6 harg6 hc0 hc1 x0 x1 xs0 xs1).2.2.1, y ∈ pc.1.set :=
  View.cover_of_tiledL (kernelRun0_B c i arg2 harg2 arg3 harg3 arg4 harg4 arg5 harg5 arg6 harg6 hc0 hc1 x0 x1 xs0 xs1).2.2.1 S1x1x2048.size (by sl_kernel_rfl) y

/-- At a last step the store into the running sum covers its row. -/
theorem scover0_C_0 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).2.1, y ∈ pc.1.set :=
  View.cover_of_tiledL (kernelRun0_C c i arg2 harg2 arg3 harg3 arg4 harg4 arg5 harg5 arg6 harg6 hc0 hc1 x0 x1 xs0 xs1).2.1 S1x1x2048.size (by sl_kernel_rfl) y

/-- At a last step the store into the running count covers its row. -/
theorem scover0_C_1 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).2.2.1, y ∈ pc.1.set :=
  View.cover_of_tiledL (kernelRun0_C c i arg2 harg2 arg3 harg3 arg4 harg4 arg5 harg5 arg6 harg6 hc0 hc1 x0 x1 xs0 xs1).2.2.1 S1x1x2048.size (by sl_kernel_rfl) y

/-- At a last step the store of the mean covers the output window's row. -/
theorem cover0_C_2 (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) (y : S1x1x2048.Idx) :
    ∃ pc ∈ (kernelRun0_C c i arg2 harg2 arg3 harg3 arg4 harg4 arg5 harg5 arg6 harg6 hc0 hc1 x0 x1 xs0 xs1).1, y ∈ pc.1.set :=
  View.cover_of_tiledL (kernelRun0_C c i arg2 harg2 arg3 harg3 arg4 harg4 arg5 harg5 arg6 harg6 hc0 hc1 x0 x1 xs0 xs1).1 S1x1x2048.size (by sl_kernel_rfl) y

/-! ## What a point leaves: (output window, running sum, running count) -/

/-- A row nothing consults: what stands for the output window's contents at the points that do not store into it. -/
def idleRow : Vec F S1x1x2048 .f32 := VO0_2.read (Elt F) VO0_2.junk

/-- After a first step at point `t`. -/
def afterFirst (c : Dev nD) (t : Fin cfg0.N) (h0 : t.val % 4 = 0) (h1 : ¬t.val % 4 = 3)
    (x0 : Vec F S1x1024x2048 .f32) (x1 : Vec F S1x1024x2048 .i32) : Vec F S1x1x2048 .f32 × Vec F S1x1x2048 .f32 × Vec F S1x1x2048 .f32 :=
  (idleRow,
   VS0_0.read (Elt F) (VS0_0.writes (Elt F) VS0_0.junk (kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) x0 x1).2.1),
   VS0_1.read (Elt F) (VS0_1.writes (Elt F) VS0_1.junk (kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) x0 x1).2.2.1))

/-- After a middle step at point `t`, from the rows `xs0`, `xs1` the point before left. -/
def afterMiddle (c : Dev nD) (t : Fin cfg0.N) (h0 : ¬t.val % 4 = 0) (h1 : ¬t.val % 4 = 3)
    (x0 : Vec F S1x1024x2048 .f32) (x1 : Vec F S1x1024x2048 .i32) (xs0 xs1 : Vec F S1x1x2048 .f32) : Vec F S1x1x2048 .f32 × Vec F S1x1x2048 .f32 × Vec F S1x1x2048 .f32 :=
  (idleRow,
   VS0_0.read (Elt F) (VS0_0.writes (Elt F) VS0_0.junk (kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) x0 x1 xs0 xs1).2.1),
   VS0_1.read (Elt F) (VS0_1.writes (Elt F) VS0_1.junk (kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) x0 x1 xs0 xs1).2.2.1))

/-- After a last step at point `t`, from the rows `xs0`, `xs1` the point before left. -/
def afterLast (c : Dev nD) (t : Fin cfg0.N) (h0 : ¬t.val % 4 = 0) (h1 : t.val % 4 = 3)
    (x0 : Vec F S1x1024x2048 .f32) (x1 : Vec F S1x1024x2048 .i32) (xs0 xs1 : Vec F S1x1x2048 .f32) : Vec F S1x1x2048 .f32 × Vec F S1x1x2048 .f32 × Vec F S1x1x2048 .f32 :=
  (VO0_2.read (Elt F) (VO0_2.writes (Elt F) VO0_2.junk (kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) x0 x1 xs0 xs1).1),
   VS0_0.read (Elt F) (VS0_0.writes (Elt F) VS0_0.junk (kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) x0 x1 xs0 xs1).2.1),
   VS0_1.read (Elt F) (VS0_1.writes (Elt F) VS0_1.junk (kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) x0 x1 xs0 xs1).2.2.1))

/-- THE ACCUMULATION: what the output window's staging buffer and the two scratch rows hold after the body at
    position `n`, by recursion on the position. -/
def accAt0 (c : Dev nD) : (n : ℕ) → n < cfg0.N → Vec F S1x1x2048 .f32 × Vec F S1x1x2048 .f32 × Vec F S1x1x2048 .f32
  | 0, hn => afterFirst c ⟨0, hn⟩ (Nat.zero_mod _) (by show ¬ ((0 : ℕ) % 4 = 3); decide) (iblk0 V c 0 ⟨0, hn⟩) (iblk0 V c 1 ⟨0, hn⟩)
  | n + 1, hn =>
    if h0 : (n + 1) % 4 = 0 then
      afterFirst c ⟨n + 1, hn⟩ h0 (by show ¬ ((n + 1) % 4 = 3); omega) (iblk0 V c 0 ⟨n + 1, hn⟩) (iblk0 V c 1 ⟨n + 1, hn⟩)
    else if h1 : (n + 1) % 4 = 3 then
      afterLast c ⟨n + 1, hn⟩ h0 h1 (iblk0 V c 0 ⟨n + 1, hn⟩) (iblk0 V c 1 ⟨n + 1, hn⟩) (accAt0 c n (Nat.lt_of_succ_lt hn)).2.1 (accAt0 c n (Nat.lt_of_succ_lt hn)).2.2
    else
      afterMiddle c ⟨n + 1, hn⟩ h0 h1 (iblk0 V c 0 ⟨n + 1, hn⟩) (iblk0 V c 1 ⟨n + 1, hn⟩) (accAt0 c n (Nat.lt_of_succ_lt hn)).2.1 (accAt0 c n (Nat.lt_of_succ_lt hn)).2.2

theorem accAt0_first (c : Dev nD) (t : Fin cfg0.N) (h0 : t.val % 4 = 0) (h1 : ¬t.val % 4 = 3) :
    accAt0 V c t.val t.isLt = afterFirst c t h0 h1 (iblk0 V c 0 t) (iblk0 V c 1 t) := by
  obtain ⟨n, hn⟩ := t
  cases n with
  | zero => exact rfl
  | succ n => exact (dif_pos h0).trans rfl

theorem accAt0_middle (c : Dev nD) (t : Fin cfg0.N) (h0 : ¬t.val % 4 = 0) (h1 : ¬t.val % 4 = 3) :
    accAt0 V c t.val t.isLt = afterMiddle c t h0 h1 (iblk0 V c 0 t) (iblk0 V c 1 t)
      (accAt0 V c (t.val - 1) (Nat.lt_of_le_of_lt (Nat.sub_le _ _) t.isLt)).2.1 (accAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem accAt0_last (c : Dev nD) (t : Fin cfg0.N) (h0 : ¬t.val % 4 = 0) (h1 : t.val % 4 = 3) :
    accAt0 V c t.val t.isLt = afterLast c t h0 h1 (iblk0 V c 0 t) (iblk0 V c 1 t)
      (accAt0 V c (t.val - 1) (Nat.lt_of_le_of_lt (Nat.sub_le _ _) t.isLt)).2.1 (accAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-! ## The region invariant: the scratch rows carried from point to point -/

/-- Before position `n`: at the region's entry the plain invariant (every scoped buffer at anything); afterwards
    the two scratch rows at what the point before left, the other scoped buffers at anything, the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((accAt0 V c n hn).2.1) ∗ owns (c : Thread nD τ) scM0_1 fullShare ((accAt0 V c n hn).2.2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((accAt0 V c n hn).2.1) ∗ owns (c : Thread nD τ) scM0_1 fullShare ((accAt0 V c n hn).2.2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0_0 fullShare ((accAt0 V c (n - 1) (by omega)).2.1) ∗ owns (c : Thread nD τ) scM0_1 fullShare ((accAt0 V c (n - 1) (by omega)).2.2) ∗ otherScoped c) ∗ (∃ r, prngReg c r)) := by
  cases n with
  | zero => exact absurd rfl hz
  | succ n => rfl

/-! ## The pipeline's proof data -/

/-- The proof data of the first pipeline on core `c`: the arrays as the region finds them; after the body at point
    `t` each input's buffer at its block and the output's at the accumulation's first component; the invariant
    above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (accAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (accAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The inputs' buffers hold their blocks; which case the point is in is decided by its
    position mod 4; the invariant hands the body the two scratch rows at what the point before left (at anything at
    the very first point, and a first step does not care) and takes them back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [accAt0_first V c t h0 h1]
    unfold afterFirst; (try dsimp only)
    by_cases hz : t.val = 0
    · rw [PhiS_castSucc V c t, PhiS_zero V c _ _ hz, PhiA0_eq]
      iintro ⟨⟨⟨HS0, HS1, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact Hrest
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_A c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t) (iblk0 V c 1 t)).2.2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [accAt0_last V c t h0 h1]
      unfold afterLast; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_C c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [accAt0_middle V c t h0 h1]
      unfold afterMiddle; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (iblk0 V c 1 t) _ _).2.2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _)
          iexact Hrest
        iexact Hg
      isplitl [Ho]; · iexact Ho
      isplitl [H0]; · iexact H0
      isplitl [H1]; · iexact H1
      iexists _; iexact H2

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the scratch rows' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.KernelIdeal.Hand

end
-- ==== Proof.Ideal.Broadcast.lean ====
/-
  The second pallas_call (the broadcast kernel) on its own: at any contents `V` of the core's buffers when the
  region is entered, the body at a grid point (b, l) loads the one row [1,1,2048] of the mean that belongs to
  batch b and stores it 2048 times, as the block [1,2048,2048] of the output. The kernel keeps nothing between
  points, so what the output's staging buffer holds after the body is a function of the input block alone.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The mean's staging buffer holds the row of the point's batch at every point, fetched there or not: between
    two points of one batch the block index does not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole row of the mean, and the whole block of the output: the two rectangles the body touches. -/
abbrev rowRect : Rect S1x1x2048 := Rect.unit (s := S1x1x2048) ![0, 0, 0] S1x1x2048.size inb_S1x1x2048_S1x1x2048_0_0_0
abbrev outRect : Rect S1x2048x2048 := Rect.unit (s := S1x2048x2048) ![0, 0, 0] S1x2048x2048.size inb_S1x2048x2048_S1x2048x2048_0_0_0

/-- What the body leaves in the output's staging buffer: its one store, of the row repeated along the second axis. -/
def out1_1 (x0 : Vec F S1x1x2048 .f32) : Vec F S1x2048x2048 .f32 :=
  View.canon [⟨outRect, k1_pay1 (View.ld x0 rowRect)⟩]

/-- That one store covers the block. -/
theorem cover1_1 (p0 : Vec F S1x2048x2048 .f32) (y : S1x2048x2048.Idx) :
    ∃ pc ∈ ([⟨outRect, p0⟩] : List (View.Piece (Elt F) S1x2048x2048 .f32)), y ∈ pc.1.set :=
  View.cover_of_tiled [⟨outRect, p0⟩] S1x2048x2048.size (by rfl) y

set_option maxHeartbeats 1000000 in
/-- The body on whole staging buffers, the input's at contents `x0` and the output's at anything, runs to the
    continuation with the input's unchanged and the output's at `out1_1 x0`. -/
theorem sound_kernel1 (c : Dev nD) (E : Set ℕ) (i : grid1.Coords) (arg2 : Memref sig .tc .vmem S1x1x2048 .f32) (harg2 : arg2.IsWhole) (arg3 : Memref sig .tc .vmem S1x2048x2048 .f32) (harg3 : arg3.IsWhole)
    (x0 : Vec F S1x1x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out1_1 x0)) -∗ K ⟨⟩))
      ⊢ wp frame (wpE (defs₀ (F := F)) Variants.none c none) E (cc1__broadcast_kernel i arg2 harg2 arg3 harg3) K := by
  simp only [cc1__broadcast_kernel_eq_skeleton]; unfold cc1__broadcast_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of the second pipeline on core `c`: the arrays as the region finds them; after the body at
    point `t` the input's buffer at its block and the output's at `out1_1` of it; nothing kept between points,
    nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Run.lean ====
/-
  The whole program: two reshapes on the host, the reduction kernel, the broadcast kernel, one reshape on the
  host. The contents of the core's unscoped buffers are followed from the launch through the four segments: a host
  stretch applies its operations; a kernel region leaves its windows' arrays at what its write-backs produce and
  every other buffer as it found it. Every weakly fair execution terminates, and the final memory holds, at every
  unscoped buffer, the last of these contents. From that: the argument arrays end as launched (the frame), and the
  result array ends at the last reshape of what the broadcast kernel wrote.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.Reduce
import proofs.«131441_j11166914970000_2_alg».proof.Proof.Ideal.Broadcast
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each segment boundary -/

/-- At launch. -/
abbrev W0 : Dev nD → Valuation τ sig (Elt F) := fun c b => (s₀ m ρ).mem ((c : Dev nD), b)
/-- After the two reshapes (the reduction kernel's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the reduction kernel's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the broadcast kernel's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ### No segment writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The two kernels as segments -/

set_option backward.isDefEq.respectTransparency.types false in
/-- The reduction kernel's region: entered with every unscoped buffer at `W1`, left at `W2`. The generator register
    and the scoped buffers go into the region's invariant — which from the first point on carries the two scratch
    rows at named contents — and come back out of it after the last point. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V1 m ρ) c).Φ 0 from rfl]
    refine .trans ?_ (hin0 (V1 m ρ) c)
    unfold Pipeline.ΦA
    iintro ⟨Hp, -, Hr⟩
    isplitl [Hr]; · iexact Hr
    iexact Hp
  hout c := by
    rw [Pipeline.ownSems0_none]
    rw [show (pdats m ρ 0 c).Φ (Fin.last _) = (dat0 (V1 m ρ) c).Φ (Fin.last cfg0.N) from rfl]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The broadcast kernel's region: entered with every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and the final memory holds every unscoped buffer at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (StableHlo.after hostOps2 (W3 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.Ideal.ReducePieces.lean ====
/-
  What each run of the reduction kernel's body leaves, as values. Running the body found, per case, the list of
  stores each buffer ends with; here each list is read back as one row:
    first step   sum row = 0-row ⊕ block,  count row = 0-row ⊕ block   (the rows just zeroed, then added to)
    middle step  sum row = previous ⊕ block, count row = previous ⊕ block
    last step    the same two rows, and the output row = the mean of the new count row and the new sum row
  where ⊕ block is the body's own arithmetic (the skeleton's payloads), unopened here.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.Reduce
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable {F : FTy → Type} [FloatOps F]

theorem hzero3 : (![0, 0, 0] : Fin 3 → Nat) = fun _ => 0 := funext fun a => by fin_cases a <;> rfl

/-! ## On any staging memrefs -/

theorem first_sum (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 : Vec F S1x1024x2048 .f32) (x1 : Vec F S1x1024x2048 .i32) :
    VS0_0.read (Elt F) (VS0_0.writes (Elt F) VS0_0.junk (kernelRun0_A c i arg2 harg2 arg3 harg3 arg4 harg4 arg5 harg5 arg6 harg6 hc0 hc1 x0 x1).2.1) = k0_pay4 x1 x0 (k0_pay1 (F := F)) := by
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x1x2048) hzero3, View.readCov_unit_zero (S := S1x1x2048) _ hzero3]
  simp only [View.readAt_eq_ld, harg2.read_unread, harg3.read_unread, harg5.read_unread, harg6.read_unread, View.ld_unit_zero (S := S1x1024x2048) hzero3, View.ld_unit_zero (S := S1x1x2048) hzero3]

theorem first_cnt (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : cond0_0 i) (hc1 : ¬cond0_1 i)
    (x0 : Vec F S1x1024x2048 .f32) (x1 : Vec F S1x1024x2048 .i32) :
    VS0_1.read (Elt F) (VS0_1.writes (Elt F) VS0_1.junk (kernelRun0_A c i arg2 harg2 arg3 harg3 arg4 harg4 arg5 harg5 arg6 harg6 hc0 hc1 x0 x1).2.2.1) = k0_pay5 x1 (k0_pay2 (F := F)) := by
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1x2048) hzero3, View.readCov_unit_zero (S := S1x1x2048) _ hzero3]
  simp only [View.readAt_eq_ld, harg2.read_unread, harg3.read_unread, harg5.read_unread, harg6.read_unread, View.ld_unit_zero (S := S1x1024x2048) hzero3, View.ld_unit_zero (S := S1x1x2048) hzero3]

theorem middle_sum (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 : Vec F S1x1024x2048 .f32) (x1 : Vec F S1x1024x2048 .i32) (xs0 xs1 : Vec F S1x1x2048 .f32) :
    VS0_0.read (Elt F) (VS0_0.writes (Elt F) VS0_0.junk (kernelRun0_B c i arg2 harg2 arg3 harg3 arg4 harg4 arg5 harg5 arg6 harg6 hc0 hc1 x0 x1 xs0 xs1).2.1) = k0_pay4 x1 x0 xs0 := by
  rw [View.read_writes_eq_canon _ _ _ (scover0_B_0 c i arg2 harg2 arg3 harg3 arg4 harg4 arg5 harg5 arg6 harg6 hc0 hc1 x0 x1 xs0 xs1)]
  unfold kernelRun0_B
  dsimp only
  rw [View.canon_unit_zero hzero3]
  simp only [View.readAt_eq_ld, harg2.read_unread, harg3.read_unread, harg5.read_unread, harg6.read_unread, View.ld_unit_zero (S := S1x1024x2048) hzero3, View.ld_unit_zero (S := S1x1x2048) hzero3]

theorem middle_cnt (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : ¬cond0_1 i)
    (x0 : Vec F S1x1024x2048 .f32) (x1 : Vec F S1x1024x2048 .i32) (xs0 xs1 : Vec F S1x1x2048 .f32) :
    VS0_1.read (Elt F) (VS0_1.writes (Elt F) VS0_1.junk (kernelRun0_B c i arg2 harg2 arg3 harg3 arg4 harg4 arg5 harg5 arg6 harg6 hc0 hc1 x0 x1 xs0 xs1).2.2.1) = k0_pay5 x1 xs1 := by
  rw [View.read_writes_eq_canon _ _ _ (scover0_B_1 c i arg2 harg2 arg3 harg3 arg4 harg4 arg5 harg5 arg6 harg6 hc0 hc1 x0 x1 xs0 xs1)]
  unfold kernelRun0_B
  dsimp only
  rw [View.canon_unit_zero hzero3]
  simp only [View.readAt_eq_ld, harg2.read_unread, harg3.read_unread, harg5.read_unread, harg6.read_unread, View.ld_unit_zero (S := S1x1024x2048) hzero3, View.ld_unit_zero (S := S1x1x2048) hzero3]

theorem last_sum (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) :
    VS0_0.read (Elt F) (VS0_0.writes (Elt F) VS0_0.junk (kernelRun0_C c i arg2 harg2 arg3 harg3 arg4 harg4 arg5 harg5 arg6 harg6 hc0 hc1 x0 x1 xs0 xs1).2.1) = k0_pay4 x1 x0 xs0 := by
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hzero3]
  simp only [View.readAt_eq_ld, harg2.read_unread, harg3.read_unread, harg5.read_unread, harg6.read_unread, View.ld_unit_zero (S := S1x1024x2048) hzero3, View.ld_unit_zero (S := S1x1x2048) hzero3]

theorem last_cnt (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) :
    VS0_1.read (Elt F) (VS0_1.writes (Elt F) VS0_1.junk (kernelRun0_C c i arg2 harg2 arg3 harg3 arg4 harg4 arg5 harg5 arg6 harg6 hc0 hc1 x0 x1 xs0 xs1).2.2.1) = k0_pay5 x1 xs1 := by
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hzero3]
  simp only [View.readAt_eq_ld, harg2.read_unread, harg3.read_unread, harg5.read_unread, harg6.read_unread, View.ld_unit_zero (S := S1x1024x2048) hzero3, View.ld_unit_zero (S := S1x1x2048) hzero3]

theorem last_out (c : Dev nD) (i : grid0.Coords) (arg2 : Memref sig .tc .vmem S1x1024x2048 .f32) (harg2 : arg2.IsWhole) (arg3 : Memref sig .tc .vmem S1x1024x2048 .i32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (hc0 : ¬cond0_0 i) (hc1 : cond0_1 i)
    (x0 : Vec F S1x1024x2048 .f32) (x1 : Vec F S1x1024x2048 .i32) (xs0 xs1 : Vec F S1x1x2048 .f32) :
    VO0_2.read (Elt F) (VO0_2.writes (Elt F) VO0_2.junk (kernelRun0_C c i arg2 harg2 arg3 harg3 arg4 harg4 arg5 harg5 arg6 harg6 hc0 hc1 x0 x1 xs0 xs1).1) = k0_pay6 (k0_pay5 x1 xs1) (k0_pay4 x1 x0 xs0) := by
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hzero3]
  simp only [View.readCov_unit_zero (S := S1x1x2048) _ hzero3, View.readAt_eq_ld, harg2.read_unread, harg3.read_unread, harg5.read_unread, harg6.read_unread, View.ld_unit_zero (S := S1x1024x2048) hzero3, View.ld_unit_zero (S := S1x1x2048) hzero3]

/-! ## At a grid point -/

theorem afterFirst_eq (c : Dev nD) (t : Fin cfg0.N) (h0 : t.val % 4 = 0) (h1 : ¬t.val % 4 = 3)
    (x0 : Vec F S1x1024x2048 .f32) (x1 : Vec F S1x1024x2048 .i32) :
    afterFirst c t h0 h1 x0 x1 = (idleRow, k0_pay4 x1 x0 (k0_pay1 (F := F)), k0_pay5 x1 (k0_pay2 (F := F))) := by
  unfold afterFirst
  rw [first_sum, first_cnt]

theorem afterMiddle_eq (c : Dev nD) (t : Fin cfg0.N) (h0 : ¬t.val % 4 = 0) (h1 : ¬t.val % 4 = 3)
    (x0 : Vec F S1x1024x2048 .f32) (x1 : Vec F S1x1024x2048 .i32) (xs0 xs1 : Vec F S1x1x2048 .f32) :
    afterMiddle c t h0 h1 x0 x1 xs0 xs1 = (idleRow, k0_pay4 x1 x0 xs0, k0_pay5 x1 xs1) := by
  unfold afterMiddle
  rw [middle_sum, middle_cnt]

theorem afterLast_eq (c : Dev nD) (t : Fin cfg0.N) (h0 : ¬t.val % 4 = 0) (h1 : t.val % 4 = 3)
    (x0 : Vec F S1x1024x2048 .f32) (x1 : Vec F S1x1024x2048 .i32) (xs0 xs1 : Vec F S1x1x2048 .f32) :
    afterLast c t h0 h1 x0 x1 xs0 xs1 = (k0_pay6 (k0_pay5 x1 xs1) (k0_pay4 x1 x0 xs0), k0_pay4 x1 x0 xs0, k0_pay5 x1 xs1) := by
  unfold afterLast
  rw [last_out, last_sum, last_cnt]

end Cert.KernelIdeal.Hand

end
-- ==== Proof.LibRank3Layouts.lean ====
/-
  Layout operations on rank-3 arrays read at an index written by coordinates: the forms a pairwise sum
  `x[:, None, :] + y[None, :, :]` and a last-axis reduction kept as a unit axis (`keepdims`) are built from.
  Each is the parent lemma of Lib/Pipeline/Value.lean (`shapeCast_apply`: equal row-major positions;
  `broadcastTo_apply`: the operand's coordinate is the result's, or 0 on a unit axis) with both indices written
  `ix2 …` / `ix3 …`, general in the extents.
  • `shapeCast_ac_a1c_apply`   [a, c]    → [a, 1, c]  : (i, u, j) reads (i, j)
  • `shapeCast_ab_ab1_apply`   [a, b]    → [a, b, 1]  : (i, j, u) reads (i, j)
  • `broadcastTo_a1c_abc_apply` [a, 1, c] → [a, b, c]  : (i, q, j) reads (i, 0, j)
  • `broadcastTo_1bc_abc_apply` [1, b, c] → [a, b, c]  : (p, i, j) reads (0, i, j)
  • `broadcastTo_ab1_abc_apply` [a, b, 1] → [a, b, c]  : (i, j, k) reads (i, j, 0)
-/
import Idealize.ShloMosaic.Lib.ValueLayout

namespace Cert.LibRank3

open Idealize.ShloMosaic Idealize.ShloMosaic.ValueIdx

variable {α : Type}

/-- An `[a, c]` array cast to `[a, 1, c]` reads, at `(i, u, j)`, the operand at `(i, j)`: the unit axis adds nothing
    to the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, c]` array broadcast to `[a, b, c]` reads, at `(i, q, j)`, the operand's one middle entry `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (q : Fin b) (j : Fin c) :
    broadcastTo ⟨3, ![a, b, c]⟩ v h (ix3 i q j) = v (ix3 i (0 : Fin 1) j) := by
  refine broadcastTo_apply v h (ix3 i q j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(p, i, j)`, the operand's one leading entry `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An `[a, b, 1]` array broadcast to `[a, b, c]` reads, at `(i, j, k)`, the operand's one trailing entry `(i, j, 0)`:
    a kept reduction spread back over the reduced axis. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.LibRank3
-- ==== Proof.MaskedMean.lean ====
/-
  The masked mean over the sequence axis, as one function of the two argument arrays, and the one law the proof needs.

  For x : [8, 4096, 32, 64] of extended reals and an integer mask of the same shape, with m = the mask read as a
  number, the result at (b, l, u, v) does not depend on l:
      s   = z + Σ_{l' < 4096} x(b, l', u, v) · m(b, l', u, v)
      cnt = z + Σ_{l' < 4096} m(b, l', u, v)
      result = s / max(cnt, 1)  if cnt > 0,  else 0
  where z is the value of the float word 0x00000000 (it is zero, but nothing here needs to know). The reference
  computes exactly this. The kernel walks the sequence in four blocks of 1024 rows and accumulates
  (((z + B₀) + B₁) + B₂) + B₃ with B_q the sum over block q; in a commutative additive monoid — the extended reals
  are one, infinities included — that is z plus the sum over the whole sequence (`four_blocks`): only associativity
  and the regrouping of a finite sum are used, so no finiteness of the entries is needed.
-/
import Idealize.ShloMosaic.PureOps.Ideal
import Idealize.ShloMosaic.PureOps.Ideal.Laws
import Idealize.ShloMosaic.Lib.ValueIdx

noncomputable section

namespace Cert.MaskedMean

open Idealize.ShloMosaic Idealize.ShloMosaic.ValueIdx

/-- Row `r` of block `q` of the sequence: position `1024 q + r`. -/
abbrev seqAt (q : Fin 4) (r : Fin 1024) : Fin 4096 := ⟨q.val * 1024 + r.val, by have := q.isLt; have := r.isLt; omega⟩

/-- A sum over the sequence is the sum over its four blocks of the sums within each. -/
theorem sum_blocks {M : Type} [AddCommMonoid M] (f : Fin 4096 → M) :
    ∑ l : Fin 4096, f l = ∑ q : Fin 4, ∑ r : Fin 1024, f (seqAt q r) := by
  have e := Equiv.sum_comp (finProdFinEquiv (m := 4) (n := 1024)) (fun l : Fin (4 * 1024) => f l)
  rw [Fintype.sum_prod_type] at e
  refine e.symm.trans (Finset.sum_congr rfl fun q _ => Finset.sum_congr rfl fun r _ => ?_)
  refine congrArg f (Fin.ext ?_)
  show r.val + 1024 * q.val = q.val * 1024 + r.val
  omega

/-- THE LAW: accumulating the four block sums one after the other onto a start value is the start value plus the
    sum over the whole sequence. -/
theorem four_blocks {M : Type} [AddCommMonoid M] (z : M) (f : Fin 4096 → M) :
    (((z + ∑ r : Fin 1024, f (seqAt 0 r)) + ∑ r : Fin 1024, f (seqAt 1 r)) + ∑ r : Fin 1024, f (seqAt 2 r))
        + ∑ r : Fin 1024, f (seqAt 3 r)
      = z + ∑ l : Fin 4096, f l := by
  rw [sum_blocks f, Fin.sum_univ_four]
  simp only [add_assoc]

variable {F : FTy → Type} [FloatOps F]

/-- One entry of the mean from the masked sum `s` and the count `cnt`: `s / max(cnt, 1)` where `cnt > 0`, zero
    elsewhere — with the float operations of `F`, the constants by their words. -/
def meanOf (s cnt : F .f32) : F .f32 :=
  Scalar.select (FloatOps.cmpf .ogt cnt (FloatOps.ofBits .f32 0x00000000#32))
    (FloatOps.divf s (FloatOps.maximumf cnt (FloatOps.ofBits .f32 0x3F800000#32)))
    (FloatOps.ofBits .f32 0x00000000#32)

/-- The start value of both sums: the float word zero. -/
abbrev zeroWord : Ideal .f32 := FloatOps.ofBits (F := Ideal) .f32 0x00000000#32

/-- The masked sum and the count at batch `b`, column `(u, v)`. -/
def wsum (X : (⟨4, ![8, 4096, 32, 64]⟩ : Shape).Idx → Ideal .f32) (M : (⟨4, ![8, 4096, 32, 64]⟩ : Shape).Idx → BitVec 32)
    (b : Fin 8) (u : Fin 32) (v : Fin 64) : Ideal .f32 :=
  zeroWord + ∑ l : Fin 4096, X (ix4 b l u v) * FloatOps.sitofp (F := Ideal) .f32 (M (ix4 b l u v))
def csum (M : (⟨4, ![8, 4096, 32, 64]⟩ : Shape).Idx → BitVec 32) (b : Fin 8) (u : Fin 32) (v : Fin 64) : Ideal .f32 :=
  zeroWord + ∑ l : Fin 4096, FloatOps.sitofp (F := Ideal) .f32 (M (ix4 b l u v))

/-- THE RESULT: the masked mean, the same at every position of the sequence. -/
def result (X : (⟨4, ![8, 4096, 32, 64]⟩ : Shape).Idx → Ideal .f32) (M : (⟨4, ![8, 4096, 32, 64]⟩ : Shape).Idx → BitVec 32) :
    (⟨4, ![8, 4096, 32, 64]⟩ : Shape).Idx → Ideal .f32 :=
  fun i => meanOf (wsum X M (i 0) (i 2) (i 3)) (csum M (i 0) (i 2) (i 3))

end Cert.MaskedMean

end
-- ==== Proof.Ideal.ReduceValue.lean ====
/-
  What the reduction kernel leaves in the mean array, at the ideal values.

  Fix a batch b and a lane k. Write f(l) = x(b, l, k) · m(b, l, k) and g(l) = m(b, l, k) over the sequence, with m the
  mask read as a number. The block the body sees at grid point t = 4 b + q is rows 1024 q … 1024 q + 1023 of the
  sequence, and one step adds that block's column sum to the running row. By induction on the point the running
  sum after point t is the recursion S below; after the last step of the batch that is
  (((z + B₀) + B₁) + B₂) + B₃ = z + Σ_l f(l), and likewise for the count. The last step stores the mean of the two,
  and that is the only point of the batch that writes the output window back; the eight such blocks cover the
  mean array. So the array ends at `meanRows` of x and the mask as the region finds them.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.ReducePieces
import proofs.«131441_j11166914970000_2_alg».proof.Proof.LibRank3Layouts
import proofs.«131441_j11166914970000_2_alg».proof.Proof.MaskedMean
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable {F : FTy → Type} [FloatOps F]

open Cert.MaskedMean

/-! ## The body's arithmetic at a lane -/

theorem pay1_apply (j : S1x1x2048.Idx) : k0_pay1 (F := Ideal) j = zeroWord := by
  unfold k0_pay1; simp only [shapeCast_self]; rfl

theorem pay2_apply (j : S1x1x2048.Idx) : k0_pay2 (F := Ideal) j = zeroWord := by
  unfold k0_pay2; simp only [shapeCast_self]; rfl

theorem pay3_apply (x1 : Vec Ideal S1x1024x2048 .i32) (j : S1x1024x2048.Idx) :
    k0_pay3 (F := Ideal) x1 j = FloatOps.sitofp (F := Ideal) .f32 (x1 j) := by
  unfold k0_pay3; simp only [shapeCast_self]; rfl

/-- A column sum: the reduction of a [1, 1024, 2048] block along its rows, at lane k. -/
theorem colsum_apply (src : FVec Ideal S1x1024x2048 .f32) (h : S1x1024x2048.Reduces [1] S1x2048) (hφ : FKind.Formats .f32)
    (hacc : (0x00000000#32 : BitVec 32) = FKind.add.neutral .f32 hφ) (k : Fin 2048) :
    multiReduction .add [1] S1x2048 src 0x00000000#32 h hφ hacc (ix2 (0 : Fin 1) k) = ∑ r : Fin 1024, src (ix3 (0 : Fin 1) r k) :=
  (Ideal.multiReduction_add_single src 0x00000000#32 h hφ hacc (ix2 (0 : Fin 1) k)).trans
    (Finset.sum_congr rfl fun r _ => congrArg src (funext fun a => Fin.ext (by
      match a with | ⟨0, _⟩ => rfl | ⟨1, _⟩ => rfl | ⟨2, _⟩ => rfl)))

/-- One step of the running masked sum at lane k: the row found plus the block's masked column sum. -/
theorem pay4_apply (x1 : Vec Ideal S1x1024x2048 .i32) (x0 : Vec Ideal S1x1024x2048 .f32) (xs : Vec Ideal S1x1x2048 .f32) (k : Fin 2048) :
    k0_pay4 (F := Ideal) x1 x0 xs (ix3 (0 : Fin 1) (0 : Fin 1) k)
      = xs (ix3 (0 : Fin 1) (0 : Fin 1) k) + ∑ r : Fin 1024, x0 (ix3 (0 : Fin 1) r k) * FloatOps.sitofp (F := Ideal) .f32 (x1 (ix3 (0 : Fin 1) r k)) := by
  unfold k0_pay4
  simp only [shapeCast_self]
  refine congrArg (xs (ix3 (0 : Fin 1) (0 : Fin 1) k) + ·) ?_
  refine (Cert.LibRank3.shapeCast_ac_a1c_apply _ _ (0 : Fin 1) (0 : Fin 1) k).trans ?_
  refine (colsum_apply _ _ _ _ k).trans (Finset.sum_congr rfl fun r _ => ?_)
  show x0 (ix3 (0 : Fin 1) r k) * k0_pay3 (F := Ideal) x1 (ix3 (0 : Fin 1) r k) = _
  rw [pay3_apply]

/-- One step of the running count at lane k. -/
theorem pay5_apply (x1 : Vec Ideal S1x1024x2048 .i32) (xs : Vec Ideal S1x1x2048 .f32) (k : Fin 2048) :
    k0_pay5 (F := Ideal) x1 xs (ix3 (0 : Fin 1) (0 : Fin 1) k)
      = xs (ix3 (0 : Fin 1) (0 : Fin 1) k) + ∑ r : Fin 1024, FloatOps.sitofp (F := Ideal) .f32 (x1 (ix3 (0 : Fin 1) r k)) := by
  unfold k0_pay5
  simp only [shapeCast_self]
  refine congrArg (xs (ix3 (0 : Fin 1) (0 : Fin 1) k) + ·) ?_
  refine (Cert.LibRank3.shapeCast_ac_a1c_apply _ _ (0 : Fin 1) (0 : Fin 1) k).trans ?_
  refine (colsum_apply _ _ _ _ k).trans (Finset.sum_congr rfl fun r _ => ?_)
  rw [pay3_apply]

/-- The stored mean at an entry: the mean of that entry's sum and count. -/
theorem pay6_apply (cnt sum : Vec Ideal S1x1x2048 .f32) (j : S1x1x2048.Idx) :
    k0_pay6 (F := Ideal) cnt sum j = meanOf (sum j) (cnt j) := rfl

variable (V : (c : Dev nD) → (b : Ref sig .tc) → Buf (Elt Ideal) ((c : Thread nD τ).loc b))

/-! ## The blocks a point sees -/

/-- The batch and the step of a grid point. -/
abbrev bOf (t : Fin cfg0.N) : Fin 8 := ⟨t.val / 4, by have := lt_of_lt_of_eq t.isLt (show cfg0.N = 32 from N_0); omega⟩
abbrev lOf (t : Fin cfg0.N) : Fin 4 := ⟨t.val % 4, by omega⟩

/-- The printed index maps over the grid: the two input windows follow (batch, step), the output window the batch. -/
theorem idx_facts0 : ∀ t : Fin cfg0.N, win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

theorem iblk0_x_apply (c : Dev nD) (t : Fin cfg0.N) (r : Fin 1024) (k : Fin 2048) :
    (iblk0 V c 0 t : Vec Ideal S1x1024x2048 .f32) (ix3 (0 : Fin 1) r k)
      = (V c main_v0 : S8x4096x2048.Idx → Ideal .f32) (ix3 (bOf t) (seqAt (lOf t) r) k) := by
  obtain ⟨e0, e1, e2, -⟩ := idx_facts0 t
  unfold iblk0
  rw [View.read_apply]
  show V c main_v0 (((cfg0.win 0).blk t).view.emb (ix3 (0 : Fin 1) r k)) = _
  refine congrArg (V c main_v0) ?_
  funext a; apply Fin.ext
  match a with
  | ⟨0, _⟩ => show win0_0.index t (0 : Fin 3) * 1 + 1 * 0 = t.val / 4; omega
  | ⟨1, _⟩ => show win0_0.index t (1 : Fin 3) * 1024 + 1 * r.val = t.val % 4 * 1024 + r.val; omega
  | ⟨2, _⟩ => show win0_0.index t (2 : Fin 3) * 2048 + 1 * k.val = k.val; omega

theorem iblk0_m_apply (c : Dev nD) (t : Fin cfg0.N) (r : Fin 1024) (k : Fin 2048) :
    (iblk0 V c 1 t : Vec Ideal S1x1024x2048 .i32) (ix3 (0 : Fin 1) r k)
      = (V c main_v1 : S8x4096x2048.Idx → BitVec 32) (ix3 (bOf t) (seqAt (lOf t) r) k) := by
  obtain ⟨-, -, -, e0, e1, e2, -⟩ := idx_facts0 t
  unfold iblk0
  rw [View.read_apply]
  show V c main_v1 (((cfg0.win 1).blk t).view.emb (ix3 (0 : Fin 1) r k)) = _
  refine congrArg (V c main_v1) ?_
  funext a; apply Fin.ext
  match a with
  | ⟨0, _⟩ => show win0_1.index t (0 : Fin 3) * 1 + 1 * 0 = t.val / 4; omega
  | ⟨1, _⟩ => show win0_1.index t (1 : Fin 3) * 1024 + 1 * r.val = t.val % 4 * 1024 + r.val; omega
  | ⟨2, _⟩ => show win0_1.index t (2 : Fin 3) * 2048 + 1 * k.val = k.val; omega

/-! ## The running sums -/

/-- The terms of the two sums at batch b, lane k, along the sequence. -/
abbrev wterm (X : S8x4096x2048.Idx → Ideal .f32) (Mk : S8x4096x2048.Idx → BitVec 32) (b : Fin 8) (k : Fin 2048) (l : Fin 4096) : Ideal .f32 :=
  X (ix3 b l k) * FloatOps.sitofp (F := Ideal) .f32 (Mk (ix3 b l k))
abbrev cterm (Mk : S8x4096x2048.Idx → BitVec 32) (b : Fin 8) (k : Fin 2048) (l : Fin 4096) : Ideal .f32 :=
  FloatOps.sitofp (F := Ideal) .f32 (Mk (ix3 b l k))

/-- The running sum of `f` over the blocks seen up to position n: restarted from z at the first step of a batch. -/
def runSum (f : Fin 8 → Fin 4096 → Ideal .f32) : (n : ℕ) → n < cfg0.N → Ideal .f32
  | 0, hn => zeroWord + ∑ r : Fin 1024, f (bOf ⟨0, hn⟩) (seqAt (lOf ⟨0, hn⟩) r)
  | n + 1, hn =>
    if (n + 1) % 4 = 0 then zeroWord + ∑ r : Fin 1024, f (bOf ⟨n + 1, hn⟩) (seqAt (lOf ⟨n + 1, hn⟩) r)
    else runSum f n (Nat.lt_of_succ_lt hn) + ∑ r : Fin 1024, f (bOf ⟨n + 1, hn⟩) (seqAt (lOf ⟨n + 1, hn⟩) r)

theorem runSum_first (f : Fin 8 → Fin 4096 → Ideal .f32) (n : ℕ) (hn : n < cfg0.N) (h0 : n % 4 = 0) :
    runSum f n hn = zeroWord + ∑ r : Fin 1024, f (bOf ⟨n, hn⟩) (seqAt (lOf ⟨n, hn⟩) r) := by
  cases n with
  | zero => rfl
  | succ n => exact if_pos h0

theorem runSum_next (f : Fin 8 → Fin 4096 → Ideal .f32) (n : ℕ) (hn : n + 1 < cfg0.N) (h0 : ¬(n + 1) % 4 = 0) :
    runSum f (n + 1) hn = runSum f n (Nat.lt_of_succ_lt hn) + ∑ r : Fin 1024, f (bOf ⟨n + 1, hn⟩) (seqAt (lOf ⟨n + 1, hn⟩) r) :=
  if_neg h0

/-- After the last step of a batch the running sum is z plus the sum over the whole sequence. -/
theorem runSum_last (f : Fin 8 → Fin 4096 → Ideal .f32) (t : Fin cfg0.N) (h3 : t.val % 4 = 3) :
    runSum f t.val t.isLt = zeroWord + ∑ l : Fin 4096, f (bOf t) l := by
  obtain ⟨n, hn⟩ := t
  obtain ⟨m, rfl⟩ : ∃ m, n = m + 3 := ⟨n - 3, by dsimp only at h3; omega⟩
  dsimp only at h3 ⊢
  have hm : m % 4 = 0 := by omega
  rw [runSum_next f (m + 2) hn (by omega), runSum_next f (m + 1) _ (by omega), runSum_next f m _ (by omega), runSum_first f m _ hm]
  have hb : ∀ (q : ℕ) (hq : m + q < cfg0.N), q < 4 → bOf ⟨m + q, hq⟩ = bOf ⟨m + 3, hn⟩ := fun q hq h => Fin.ext (by show (m + q) / 4 = (m + 3) / 4; omega)
  have hl : ∀ (q : ℕ) (hq : m + q < cfg0.N) (h : q < 4), lOf ⟨m + q, hq⟩ = ⟨q, h⟩ := fun q hq h => Fin.ext (by show (m + q) % 4 = q; omega)
  rw [show (⟨m, _⟩ : Fin cfg0.N) = ⟨m + 0, by omega⟩ from rfl, hb 0 _ (by omega), hb 1 _ (by omega), hb 2 _ (by omega),
    hl 0 _ (by omega), hl 1 _ (by omega), hl 2 _ (by omega), hl 3 hn (by omega)]
  exact four_blocks zeroWord (f (bOf ⟨m + 3, hn⟩))

/-- THE INDUCTION: the running rows the accumulation carries are the running sums, lane by lane. -/
theorem rows_eq (c : Dev nD) : ∀ (n : ℕ) (hn : n < cfg0.N) (k : Fin 2048),
    (accAt0 V c n hn).2.1 (ix3 (0 : Fin 1) (0 : Fin 1) k) = runSum (fun b l => wterm (V c main_v0) (V c main_v1) b k l) n hn
    ∧ (accAt0 V c n hn).2.2 (ix3 (0 : Fin 1) (0 : Fin 1) k) = runSum (fun b l => cterm (V c main_v1) b k l) n hn
  | 0, hn, k => by
    have e := (accAt0_first V c ⟨0, hn⟩ (Nat.zero_mod 4) (by show ¬ ((0 : ℕ) % 4 = 3); decide)).trans (afterFirst_eq _ _ _ _ _ _)
    rw [show accAt0 V c 0 hn = _ from e]
    dsimp only
    constructor
    · refine (pay4_apply _ _ _ k).trans ?_
      rw [pay1_apply]
      refine congrArg (zeroWord + ·) (Finset.sum_congr rfl fun r _ => ?_)
      rw [iblk0_x_apply, iblk0_m_apply]
    · refine (pay5_apply _ _ k).trans ?_
      rw [pay2_apply]
      refine congrArg (zeroWord + ·) (Finset.sum_congr rfl fun r _ => ?_)
      rw [iblk0_m_apply]
  | n + 1, hn, k => by
    by_cases h0 : (n + 1) % 4 = 0
    · have e := accAt0_first V c ⟨n + 1, hn⟩ h0 (by show ¬ ((n + 1) % 4 = 3); omega)
      rw [show accAt0 V c (n + 1) hn = _ from e, afterFirst_eq, runSum_first _ _ _ h0, runSum_first _ _ _ h0]
      dsimp only
      constructor
      · refine (pay4_apply _ _ _ k).trans ?_
        rw [pay1_apply]
        refine congrArg (zeroWord + ·) (Finset.sum_congr rfl fun r _ => ?_)
        rw [iblk0_x_apply, iblk0_m_apply]
      · refine (pay5_apply _ _ k).trans ?_
        rw [pay2_apply]
        refine congrArg (zeroWord + ·) (Finset.sum_congr rfl fun r _ => ?_)
        rw [iblk0_m_apply]
    · obtain ⟨ih1, ih2⟩ := rows_eq c n (Nat.lt_of_succ_lt hn) k
      rw [runSum_next _ _ _ h0, runSum_next _ _ _ h0, ← ih1, ← ih2]
      by_cases h1 : (n + 1) % 4 = 3
      · have e := accAt0_last V c ⟨n + 1, hn⟩ h0 h1
        rw [show accAt0 V c (n + 1) hn = _ from e, afterLast_eq]
        dsimp only
        constructor
        · refine (pay4_apply _ _ _ k).trans ?_
          refine congrArg (_ + ·) (Finset.sum_congr rfl fun r _ => ?_)
          rw [iblk0_x_apply, iblk0_m_apply]
        · refine (pay5_apply _ _ k).trans ?_
          refine congrArg (_ + ·) (Finset.sum_congr rfl fun r _ => ?_)
          rw [iblk0_m_apply]
      · have e := accAt0_middle V c ⟨n + 1, hn⟩ h0 h1
        rw [show accAt0 V c (n + 1) hn = _ from e, afterMiddle_eq]
        dsimp only
        constructor
        · refine (pay4_apply _ _ _ k).trans ?_
          refine congrArg (_ + ·) (Finset.sum_congr rfl fun r _ => ?_)
          rw [iblk0_x_apply, iblk0_m_apply]
        · refine (pay5_apply _ _ k).trans ?_
          refine congrArg (_ + ·) (Finset.sum_congr rfl fun r _ => ?_)
          rw [iblk0_m_apply]

/-- At a last step the output row is the mean of the point's own two rows. -/
theorem out_last (c : Dev nD) (t : Fin cfg0.N) (h0 : ¬t.val % 4 = 0) (h1 : t.val % 4 = 3) :
    (accAt0 V c t.val t.isLt).1 = k0_pay6 (F := Ideal) (accAt0 V c t.val t.isLt).2.2 (accAt0 V c t.val t.isLt).2.1 := by
  rw [accAt0_last V c t h0 h1, afterLast_eq]

/-! ## The mean array after the run -/

/-- What the mean array ends holding: per batch and lane, the mean of the masked sum and the count over the sequence. -/
def meanRows (X : S8x4096x2048.Idx → Ideal .f32) (Mk : S8x4096x2048.Idx → BitVec 32) : S8x1x2048.Idx → Ideal .f32 :=
  fun i => meanOf (zeroWord + ∑ l : Fin 4096, X (ix3 (i 0) l (i 2)) * FloatOps.sitofp (F := Ideal) .f32 (Mk (ix3 (i 0) l (i 2))))
    (zeroWord + ∑ l : Fin 4096, FloatOps.sitofp (F := Ideal) .f32 (Mk (ix3 (i 0) l (i 2))))

theorem meanRows_apply (X : S8x4096x2048.Idx → Ideal .f32) (Mk : S8x4096x2048.Idx → BitVec 32) (b : Fin 8) (k : Fin 2048) :
    meanRows X Mk (ix3 b (0 : Fin 1) k)
      = meanOf (zeroWord + ∑ l : Fin 4096, wterm X Mk b k l) (zeroWord + ∑ l : Fin 4096, cterm Mk b k l) := rfl

/-- At a last step, lane by lane, the stored row is the batch's row of `meanRows`. -/
theorem last_row (c : Dev nD) (t : Fin cfg0.N) (h3 : t.val % 4 = 3) (k : Fin 2048) :
    k0_pay6 (F := Ideal) (accAt0 V c t.val t.isLt).2.2 (accAt0 V c t.val t.isLt).2.1 (ix3 (0 : Fin 1) (0 : Fin 1) k)
      = meanRows (V c main_v0) (V c main_v1) (ix3 (bOf t) (0 : Fin 1) k) := by
  obtain ⟨r1, r2⟩ := rows_eq V c t.val t.isLt k
  rw [meanRows_apply, pay6_apply, r1, r2, runSum_last _ t h3, runSum_last _ t h3]

/-- What a last step writes back is its batch's row of `meanRows`. -/
theorem flushed0_eq (c : Dev nD) (t : Fin cfg0.N) (hf : (cfg0.win 2).flush t = true) :
    (dat0 V c).flushed 2 t = ((cfg0.win 2).blk t).view.read (Elt Ideal) (meanRows (V c main_v0) (V c main_v1)) := by
  have h3 : t.val % 4 = 3 := (flush0_2 t).mp hf
  have h0 : ¬t.val % 4 = 0 := by omega
  obtain ⟨-, -, -, -, -, -, e0, e1, e2⟩ := idx_facts0 t
  show (cfg0.win 2).cut (grid0.coords t) ((dat0 V c).after 2 t) = _
  rw [after0_2, out_last V c t h0 h3]
  have key := last_row V c t h3
  generalize k0_pay6 (F := Ideal) (accAt0 V c t.val t.isLt).2.2 (accAt0 V c t.val t.isLt).2.1 = row at key ⊢
  generalize meanRows (V c main_v0) (V c main_v1) = G at key ⊢
  funext j
  obtain ⟨u, w, k, rfl⟩ : ∃ (u : Fin 1) (w : Fin 1) (k : Fin 2048), j = ix3 u w k := ⟨j 0, j 1, j 2, eq_ix3 j⟩
  have hu : u = 0 := Fin.ext (by omega)
  have hw : w = 0 := Fin.ext (by omega)
  subst hu; subst hw
  show row (ix3 (0 : Fin 1) (0 : Fin 1) k) = G (((cfg0.win 2).blk t).view.emb (ix3 (0 : Fin 1) (0 : Fin 1) k))
  have hemb : ((cfg0.win 2).blk t).view.emb (ix3 (0 : Fin 1) (0 : Fin 1) k) = (ix3 (bOf t) (0 : Fin 1) k : S8x1x2048.Idx) := by
    funext a; apply Fin.ext
    match a with
    | ⟨0, _⟩ => show win0_2.index t (0 : Fin 3) * 1 + 1 * 0 = t.val / 4; omega
    | ⟨1, _⟩ => show win0_2.index t (1 : Fin 3) * 1 + 1 * 0 = 0; omega
    | ⟨2, _⟩ => show win0_2.index t (2 : Fin 3) * 2048 + 1 * k.val = k.val; omega
  rw [hemb]
  exact key k

theorem mem_blk0 (t : Fin cfg0.N) (i : S8x1x2048.Idx) :
    i ∈ ((cfg0.win 2).blk t).view.set ↔ ∀ a : Fin 3, win0_2.index t a * S1x1x2048.size a ≤ (i a).val ∧ (i a).val < win0_2.index t a * S1x1x2048.size a + S1x1x2048.size a := by
  show i ∈ ((View.whole main_v2).slice (win0_2.rect t)).set ↔ _
  rw [View.set_slice_whole, Rect.mem_set_unit]
  exact Iff.rfl

/-- Every batch has its last step. -/
theorem idx_onto0 : ∀ q0 : Fin 8, ∃ t : Fin cfg0.N, t.val % 4 = 3 ∧ win0_2.index t = ![q0.val, 0, 0] :=
  (by decide +kernel : ∀ q0 : Fin 8, ∃ t : Fin grid0.N, t.val % 4 = 3 ∧ win0_2.index t = ![q0.val, 0, 0])

theorem cover0 (i : S8x1x2048.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 2048 := (i 2).isLt
  obtain ⟨t, h3, ht⟩ := idx_onto0 ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, (flush0_2 t).mpr h3, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 2048 ≤ (i 2).val ∧ (i 2).val < win0_2.index t (2 : Fin 3) * 2048 + 2048; omega

/-- THE MEAN ARRAY after the reduction kernel. -/
theorem final0 (c : Dev nD) : (dat0 V c).arrAt 2 cfg0.N = meanRows (V c main_v0) (V c main_v1) :=
  (dat0 V c).arrAt_eq_of_cover 2 (meanRows (V c main_v0) (V c main_v1)) (fun t hf => flushed0_eq V c t hf) cover0

end Cert.KernelIdeal.Hand

end
-- ==== Proof.Ideal.BroadcastValue.lean ====
/-
  What the broadcast kernel leaves in its output array. At grid point (b, l) the body stores, at every row r of the
  output block, the one row of the mean it was handed: entry (0, r, k) of the block is entry (0, 0, k) of the input
  block, which is entry (b, 0, k) of the mean. The output blocks tile the output array, so after the run the array
  holds, at (b, l, k), the mean at (b, 0, k).
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.Broadcast
import proofs.«131441_j11166914970000_2_alg».proof.Proof.LibRank3Layouts
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem hz3 : (![0, 0, 0] : Fin 3 → Nat) = fun _ => 0 := funext fun a => by fin_cases a <;> rfl

/-- The stored block repeats the input row: entry (u, r, k) is the row's entry k. -/
theorem out1_1_apply (x0 : Vec F S1x1x2048 .f32) (u : Fin 1) (r : Fin 2048) (k : Fin 2048) :
    out1_1 x0 (ix3 u r k) = x0 (ix3 (0 : Fin 1) (0 : Fin 1) k) := by
  unfold out1_1
  rw [View.canon_unit_zero hz3]
  simp only [View.ld_unit_zero (S := S1x1x2048) hz3]
  unfold k1_pay1
  simp only [shapeCast_self]
  have hu : u = 0 := Fin.ext (by omega)
  subst hu
  exact Cert.LibRank3.broadcastTo_a1c_abc_apply x0 _ (0 : Fin 1) r k

/-- The mean with its row repeated along the sequence axis: what the output array ends holding. -/
def spread (A : S8x1x2048.Idx → Elt F .f32) : S8x4096x2048.Idx → Elt F .f32 :=
  fun i => A (ix3 (i 0) (0 : Fin 1) (i 2))

/-- The printed index maps over the grid: the input window follows the batch, the output window the batch and the
    half of the sequence. -/
theorem idx_facts1 : ∀ t : Fin cfg1.N, win1_0.index t (0 : Fin 3) = win1_1.index t (0 : Fin 3)
    ∧ win1_0.index t (1 : Fin 3) = 0 ∧ win1_0.index t (2 : Fin 3) = 0 ∧ win1_1.index t (2 : Fin 3) = 0
    ∧ win1_1.index t (0 : Fin 3) ≤ 7 ∧ win1_1.index t (1 : Fin 3) ≤ 1 :=
  (by decide +kernel : ∀ t : Fin grid1.N, _)

/-- Every block of the output is some point's. -/
theorem idx_onto1 : ∀ (q0 : Fin 8) (q1 : Fin 2), ∃ t : Fin cfg1.N, win1_1.index t = ![q0.val, q1.val, 0] :=
  (by decide +kernel : ∀ (q0 : Fin 8) (q1 : Fin 2), ∃ t : Fin grid1.N, win1_1.index t = ![q0.val, q1.val, 0])

/-- What point `t` writes back is block `t` of the spread mean. -/
theorem flushed1_eq (c : Dev nD) (t : Fin cfg1.N) :
    (dat1 V c).flushed 1 t = ((cfg1.win 1).blk t).view.read (Elt F) (spread (V c main_v2)) := by
  show (cfg1.win 1).cut (grid1.coords t) ((dat1 V c).after 1 t) = _
  rw [after1_1]
  obtain ⟨e0, e1, e2, e3, e4, e5⟩ := idx_facts1 t
  funext j
  obtain ⟨u, r, k, rfl⟩ : ∃ (u : Fin 1) (r : Fin 2048) (k : Fin 2048), j = ix3 u r k := ⟨j 0, j 1, j 2, eq_ix3 j⟩
  show out1_1 (iblk1 V c 0 t) (ix3 u r k) = spread (V c main_v2) (((cfg1.win 1).blk t).view.emb (ix3 u r k))
  rw [out1_1_apply]
  unfold iblk1 spread
  rw [View.read_apply]
  show V c main_v2 (((cfg1.win 0).blk t).view.emb (ix3 (0 : Fin 1) (0 : Fin 1) k)) = V c main_v2 _
  refine congrArg (V c main_v2) ?_
  funext a; apply Fin.ext
  have hu : u.val = 0 := by omega
  match a with
  | ⟨0, _⟩ => show win1_0.index t (0 : Fin 3) * 1 + 1 * 0 = win1_1.index t (0 : Fin 3) * 1 + 1 * u.val; omega
  | ⟨1, _⟩ => show win1_0.index t (1 : Fin 3) * 1 + 1 * 0 = 0; omega
  | ⟨2, _⟩ => show win1_0.index t (2 : Fin 3) * 2048 + 1 * k.val = win1_1.index t (2 : Fin 3) * 2048 + 1 * k.val; omega

/-- An index of the output array is in point `t`'s block iff each coordinate is in the block's range. -/
theorem mem_blk1 (t : Fin cfg1.N) (i : S8x4096x2048.Idx) :
    i ∈ ((cfg1.win 1).blk t).view.set ↔ ∀ a : Fin 3, win1_1.index t a * S1x2048x2048.size a ≤ (i a).val ∧ (i a).val < win1_1.index t a * S1x2048x2048.size a + S1x2048x2048.size a := by
  show i ∈ ((View.whole main_v3).slice (win1_1.rect t)).set ↔ _
  rw [View.set_slice_whole, Rect.mem_set_unit]
  exact Iff.rfl

/-- The output blocks cover the output array. -/
theorem cover1 (i : S8x4096x2048.Idx) : ∃ t : Fin cfg1.N, (cfg1.win 1).flush t = true ∧ i ∈ ((cfg1.win 1).blk t).view.set := by
  have hi0 : (i 0).val < 8 := (i 0).isLt
  have hi1 : (i 1).val < 4096 := (i 1).isLt
  have hi2 : (i 2).val < 2048 := (i 2).isLt
  obtain ⟨t, ht⟩ := idx_onto1 ⟨(i 0).val, hi0⟩ ⟨(i 1).val / 2048, by omega⟩
  have q0 : win1_1.index t (0 : Fin 3) = (i 0).val := congrFun ht 0
  have q1 : win1_1.index t (1 : Fin 3) = (i 1).val / 2048 := congrFun ht 1
  have q2 : win1_1.index t (2 : Fin 3) = 0 := congrFun ht 2
  refine ⟨t, flush1_1 t, ?_⟩
  rw [mem_blk1]
  intro a
  match a with
  | ⟨0, _⟩ => show win1_1.index t (0 : Fin 3) * 1 ≤ (i 0).val ∧ (i 0).val < win1_1.index t (0 : Fin 3) * 1 + 1; omega
  | ⟨1, _⟩ => show win1_1.index t (1 : Fin 3) * 2048 ≤ (i 1).val ∧ (i 1).val < win1_1.index t (1 : Fin 3) * 2048 + 2048; omega
  | ⟨2, _⟩ => show win1_1.index t (2 : Fin 3) * 2048 ≤ (i 2).val ∧ (i 2).val < win1_1.index t (2 : Fin 3) * 2048 + 2048; omega

/-- THE OUTPUT ARRAY after the broadcast kernel: the mean, its row repeated along the sequence. -/
theorem final1 (c : Dev nD) : (dat1 V c).arrAt 1 cfg1.N = spread (V c main_v2) :=
  (dat1 V c).arrAt_eq_of_cover 1 (spread (V c main_v2)) (fun t _ => flushed1_eq V c t) cover1

end Cert.KernelIdeal.Hand

end
-- ==== Proof.LibSplitLast.lean ====
/-
  A shape cast that SPLITS THE LAST AXIS of a rank-3 array, read at an index.

  Row-major order numbers the entries of an `[a, b, n]` array by `(p * b + q) * n + l` and those of an `[a, b, c, d]`
  array by `((p * b + q) * c + u) * d + v`.  When `n = c * d` the two numberings agree exactly when `l = u * d + v`:
  a shape cast keeps every entry's row-major position, so entry `(p, q, u, v)` of the cast array is entry
  `(p, q, u * d + v)` of the operand.
-/
import Idealize.ShloMosaic.Lib.Pipeline.Value
import Idealize.ShloMosaic.Lib.ValueIdx

namespace Idealize.ShloMosaic.ValueIdx

open Idealize.ShloMosaic

/-- An `[a, b, n]` array with `n = c * d`, cast to `[a, b, c, d]`, reads at `(p, q, u, v)` the operand at `(p, q, l)`
    for the lane `l = u * d + v`: the two indices have one row-major position. -/
theorem shapeCast_abn_abcd_apply {α : Type} {a b c d n : ℕ} (x : (⟨3, ![a, b, n]⟩ : Shape).Idx → α)
    (h : (⟨3, ![a, b, n]⟩ : Shape).ShapeCasts ⟨4, ![a, b, c, d]⟩) (hn : n = c * d)
    (p : Fin a) (q : Fin b) (u : Fin c) (v : Fin d) (l : Fin n) (hl : l.val = u.val * d + v.val) :
    shapeCast ⟨4, ![a, b, c, d]⟩ x h (ix4 p q u v) = x (ix3 p q l) :=
  shapeCast_apply x h _ _ (by
    rw [Shape.rowMajor_val_three, Shape.rowMajor_val_four]
    show (p.val * b + q.val) * n + l.val = ((p.val * b + q.val) * c + u.val) * d + v.val
    rw [hl, hn]
    ring)

end Idealize.ShloMosaic.ValueIdx
-- ==== Proof.LibMergeLast.lean ====
/-
  A shape cast that MERGES THE LAST TWO AXES of a rank-4 array, read at an index.

  Row-major order numbers the entries of an `[a, b, c, d]` array by `((p * b + q) * c + u) * d + v` and those of an
  `[a, b, n]` array by `(p * b + q) * n + l`.  When `n = c * d` the two numberings agree exactly when
  `l = u * d + v`: a shape cast keeps every entry's row-major position, so entry `(p, q, l)` of the cast array is
  entry `(p, q, u, v)` of the operand.  (The converse cast, which splits the last axis, reads the same way.)
-/
import Idealize.ShloMosaic.Lib.Pipeline.Value
import Idealize.ShloMosaic.Lib.ValueIdx

namespace Cert.LibMergeLast

open Idealize.ShloMosaic Idealize.ShloMosaic.ValueIdx

/-- An `[a, b, c, d]` array cast to `[a, b, n]` with `n = c * d` reads at `(p, q, l)`, for the lane
    `l = u * d + v`, the operand at `(p, q, u, v)`: the two indices have one row-major position. -/
theorem shapeCast_abcd_abn_apply {α : Type} {a b c d n : ℕ} (x : (⟨4, ![a, b, c, d]⟩ : Shape).Idx → α)
    (h : (⟨4, ![a, b, c, d]⟩ : Shape).ShapeCasts ⟨3, ![a, b, n]⟩) (hn : n = c * d)
    (p : Fin a) (q : Fin b) (u : Fin c) (v : Fin d) (l : Fin n) (hl : l.val = u.val * d + v.val) :
    shapeCast ⟨3, ![a, b, n]⟩ x h (ix3 p q l) = x (ix4 p q u v) :=
  shapeCast_apply x h _ _ (by
    rw [Shape.rowMajor_val_three, Shape.rowMajor_val_four]
    show ((p.val * b + q.val) * c + u.val) * d + v.val = (p.val * b + q.val) * n + l.val
    rw [hl, hn]
    ring)

end Cert.LibMergeLast
-- ==== Proof.Ideal.Result.lean ====
/-
  The idealized kernel's result array as a function of its two arguments.

  Follow the buffers through the program at the ideal values. The two reshapes merge the last two axes of x and of the
  mask: entry (b, l, k) of a reshaped array is entry (b, l, k / 64, k % 64) of the argument. The reduction kernel
  leaves the mean rows of those; the broadcast kernel repeats each row along the sequence; the last reshape splits
  the lane axis again. Entry (b, l, u, v) of the result is therefore the mean, over the sequence, of the argument
  entries (b, ·, u, v): the masked mean of the specification.
-/
import proofs.«131441_j11166914970000_2_alg».proof.Proof.Gen.KernelIdeal.Launch
import proofs.«131441_j11166914970000_2_alg».proof.Proof.Gen.KernelIdeal.Skeleton
import proofs.«131441_j11166914970000_2_alg».proof.Proof.Gen.KernelIdeal.Points
import proofs.«131441_j11166914970000_2_alg».proof.Proof.Ideal.Run
import proofs.«131441_j11166914970000_2_alg».proof.Proof.Ideal.ReduceValue
import proofs.«131441_j11166914970000_2_alg».proof.Proof.Ideal.BroadcastValue
import proofs.«131441_j11166914970000_2_alg».proof.Proof.LibSplitLast
import proofs.«131441_j11166914970000_2_alg».proof.Proof.LibMergeLast
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable {F : FTy → Type} [FloatOps F]

open Cert.MaskedMean

/-- The layout bookkeeping: merge the last two axes, take the mean rows, repeat them along the sequence, split the
    lanes again — that is the masked mean of the rank-4 arguments. -/
theorem layout_eq (X4 : S8x4096x32x64.Idx → Ideal .f32) (M4 : S8x4096x32x64.Idx → BitVec 32) :
    shapeCast S8x4096x32x64 (spread (F := Ideal) (meanRows (shapeCast S8x4096x2048 X4 shapeCasts_S8x4096x32x64_S8x4096x2048)
        (shapeCast S8x4096x2048 M4 shapeCasts_S8x4096x32x64_S8x4096x2048))) shapeCasts_S8x4096x2048_S8x4096x32x64
      = result X4 M4 := by
  funext i
  obtain ⟨b, l, u, v, rfl⟩ : ∃ (b : Fin 8) (l : Fin 4096) (u : Fin 32) (v : Fin 64), i = ix4 b l u v := ⟨i 0, i 1, i 2, i 3, eq_ix4 i⟩
  have hk : u.val * 64 + v.val < 2048 := by have := u.isLt; have := v.isLt; omega
  refine (shapeCast_abn_abcd_apply _ _ (by decide : 2048 = 32 * 64) b l u v ⟨u.val * 64 + v.val, hk⟩ rfl).trans ?_
  have hx : ∀ l' : Fin 4096, shapeCast S8x4096x2048 X4 shapeCasts_S8x4096x32x64_S8x4096x2048 (ix3 b l' ⟨u.val * 64 + v.val, hk⟩) = X4 (ix4 b l' u v) :=
    fun l' => Cert.LibMergeLast.shapeCast_abcd_abn_apply X4 _ (by decide : 2048 = 32 * 64) b l' u v ⟨u.val * 64 + v.val, hk⟩ rfl
  have hm : ∀ l' : Fin 4096, shapeCast S8x4096x2048 M4 shapeCasts_S8x4096x32x64_S8x4096x2048 (ix3 b l' ⟨u.val * 64 + v.val, hk⟩) = M4 (ix4 b l' u v) :=
    fun l' => Cert.LibMergeLast.shapeCast_abcd_abn_apply M4 _ (by decide : 2048 = 32 * 64) b l' u v ⟨u.val * 64 + v.val, hk⟩ rfl
  show meanOf (zeroWord + ∑ l' : Fin 4096, shapeCast S8x4096x2048 X4 shapeCasts_S8x4096x32x64_S8x4096x2048 (ix3 b l' ⟨u.val * 64 + v.val, hk⟩)
        * FloatOps.sitofp (F := Ideal) .f32 (shapeCast S8x4096x2048 M4 shapeCasts_S8x4096x32x64_S8x4096x2048 (ix3 b l' ⟨u.val * 64 + v.val, hk⟩)))
      (zeroWord + ∑ l' : Fin 4096, FloatOps.sitofp (F := Ideal) .f32 (shapeCast S8x4096x2048 M4 shapeCasts_S8x4096x32x64_S8x4096x2048 (ix3 b l' ⟨u.val * 64 + v.val, hk⟩)))
    = meanOf (zeroWord + ∑ l' : Fin 4096, X4 (ix4 b l' u v) * FloatOps.sitofp (F := Ideal) .f32 (M4 (ix4 b l' u v)))
      (zeroWord + ∑ l' : Fin 4096, FloatOps.sitofp (F := Ideal) .f32 (M4 (ix4 b l' u v)))
  simp only [hx, hm]

variable (m : (ℓ : Loc nD τ sig) → Buf (Elt Ideal) ℓ) (ρ : Dev nD → PrngReg)

/-! ## The buffers, segment by segment -/

theorem W1_v0 (c : Dev nD) : W1 m ρ c (Proc.devRef .tc main_v0)
    = shapeCast S8x4096x2048 (m ((c : Thread nD τ).loc main_arg0)) shapeCasts_S8x4096x32x64_S8x4096x2048 := by
  show StableHlo.after hostOps0 (W0 m ρ c) (Proc.devRef .tc main_v0) = _
  after_results
  rfl

theorem W1_v1 (c : Dev nD) : W1 m ρ c (Proc.devRef .tc main_v1)
    = shapeCast S8x4096x2048 (m ((c : Thread nD τ).loc main_arg1)) shapeCasts_S8x4096x32x64_S8x4096x2048 := by
  show StableHlo.after hostOps0 (W0 m ρ c) (Proc.devRef .tc main_v1) = _
  after_results
  rfl

theorem W2_v2 (c : Dev nD) : W2 m ρ c (Proc.devRef .tc main_v2)
    = meanRows (W1 m ρ c (Proc.devRef .tc main_v0)) (W1 m ρ c (Proc.devRef .tc main_v1)) :=
  (W2_arr m ρ c 2).trans (final0 (V1 m ρ) c)

theorem W3_v3 (c : Dev nD) : W3 m ρ c (Proc.devRef .tc main_v3) = spread (W2 m ρ c (Proc.devRef .tc main_v2)) :=
  (W3_arr m ρ c 1).trans (final1 (V2 m ρ) c)

theorem W4_v4 (c : Dev nD) : W4 m ρ c (Proc.devRef .tc main_v4)
    = shapeCast S8x4096x32x64 (W3 m ρ c (Proc.devRef .tc main_v3)) shapeCasts_S8x4096x2048_S8x4096x32x64 := by
  show StableHlo.after hostOps2 (W3 m ρ c) (Proc.devRef .tc main_v4) = _
  after_results
  rfl

/-- THE RESULT ARRAY at the end of the run: the masked mean of the arguments. -/
theorem W4_result (c : Dev nD) : W4 m ρ c (Proc.devRef .tc main_v4)
    = result (m ((c : Thread nD τ).loc main_arg0)) (m ((c : Thread nD τ).loc main_arg1)) := by
  rw [W4_v4, W3_v3, W2_v2, W1_v0, W1_v1]
  exact layout_eq _ _

/-- The run, read: the result array at the masked mean of the arguments, the arguments unchanged. -/
theorem run_value : θ_run defs (onTc (τ := τ) (main (F := Ideal))) ⟨m, fun _ => 0, ρ⟩ (fun r => ∀ c : Dev nD,
      r.2.mem ((c.tc : Thread nD τ).loc main_v4) = result (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v4 (by decide))).trans (W4_result m ρ c),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.Reference.lean ====
/-
  The reference computes the masked mean of the specification, entry by entry.

  Its operations, read at an index of the result (b, l, u, v): the two broadcasts at the end drop l; the select picks
  the quotient where the count is positive and zero elsewhere; the quotient is the masked sum over the count raised
  to at least one; the two sums run over the sequence axis from the float word zero. Those are, operation for
  operation, the operations of `MaskedMean.result` — at the ideal values the host's quotient is the quotient.
-/
import proofs.«131441_j11166914970000_2_alg».proof.Proof.RefRead
import proofs.«131441_j11166914970000_2_alg».proof.Proof.MaskedMean
import Idealize.ShloMosaic.Lib.ValueIdx

noncomputable section

namespace Cert.ReferenceIdeal.RefValue

open Cert.ReferenceIdeal Cert.ReferenceIdeal.Gen Cert.ReferenceIdeal.ReadP Idealize.ShloMosaic Idealize.ShloMosaic.ValueIdx Cert.MaskedMean

/-- The reference's result term is the masked mean. -/
theorem ref_eq (x0 : S8x4096x32x64.Idx → Ideal .f32) (x1 : S8x4096x32x64.Idx → BitVec 32) :
    val_main_v12 (F := Ideal) x0 x1 = result x0 x1 := by
  funext i
  obtain ⟨b, l, u, v, rfl⟩ : ∃ (b : Fin 8) (l : Fin 4096) (u : Fin 32) (v : Fin 64), i = ix4 b l u v := ⟨i 0, i 1, i 2, i 3, eq_ix4 i⟩
  have e1 : idx_main_v11 (idx_main_v12 (ix4 b l u v)) = ix3 b u v :=
    funext fun a => Fin.ext (by match a with | ⟨0, _⟩ => rfl | ⟨1, _⟩ => rfl | ⟨2, _⟩ => rfl)
  have e2 : ∀ k : Fin 4096, idx_main_v2 (ix3 b u v) k = ix4 b k u v := fun k =>
    funext fun a => Fin.ext (by match a with | ⟨0, _⟩ => rfl | ⟨1, _⟩ => rfl | ⟨2, _⟩ => rfl | ⟨3, _⟩ => rfl)
  have e3 : ∀ k : Fin 4096, idx_main_v3 (ix3 b u v) k = ix4 b k u v := fun k =>
    funext fun a => Fin.ext (by match a with | ⟨0, _⟩ => rfl | ⟨1, _⟩ => rfl | ⟨2, _⟩ => rfl | ⟨3, _⟩ => rfl)
  rw [val_main_v12_apply, val_main_v11_apply, e1, val_main_v10_apply, val_main_v5_apply, val_main_v8_apply, val_main_v7_apply,
    val_main_v2_apply, val_main_v3_apply, val_main_v4_apply, val_main_v6_apply, val_main_v9_apply]
  simp only [e2, e3, val_main_v1_apply, val_main_v0_apply, val_main_cst_apply, val_main_cst_0_apply, val_main_cst_1_apply,
    val_main_cst_2_apply, val_main_cst_3_apply]
  rfl

end Cert.ReferenceIdeal.RefValue

end
-- ==== Proof.lean ====
/-
  The certificate of a masked mean over the sequence axis.

  The kernel is two pallas_calls between reshapes: a reduction over the sequence in four blocks per batch, carrying
  the running masked sum and the running count in two scratch rows and storing the mean at the last block; and a
  broadcast of that mean along the sequence. The reference is the plain jnp expression.

  * The three frames. Both readings of the kernel (at the machine's words and at the ideal values) run to the end,
    fault nowhere and leave the arguments as launched: the run of the whole program through its four segments
    (Proof/Bits/Run.lean, Proof/Ideal/Run.lean — one text, generic in the values, in the two programs' namespaces).
    The reference's frame is its run with the result dropped.
  * The idealization rewrote nothing, so there is nothing to preserve.
  * At the ideal values both programs end with the masked mean of Proof/MaskedMean.lean: the kernel because its
    four accumulated block sums are the sum over the sequence (associativity of + on the extended reals, no
    finiteness needed) and its layout changes only rename indices (Proof/Ideal/Result.lean); the reference because
    it is that expression (Proof/Reference.lean, over the reference's run and its operations read at an index:
    Proof/RefRun.lean, Proof/RefRead.lean).
-/
import proofs.«131441_j11166914970000_2_alg».proof.Defs
import proofs.«131441_j11166914970000_2_alg».proof.Proof.Gen.Kernel
import proofs.«131441_j11166914970000_2_alg».proof.Proof.Gen.KernelIdeal
import proofs.«131441_j11166914970000_2_alg».proof.Proof.Gen.ReferenceIdeal
import proofs.«131441_j11166914970000_2_alg».proof.Proof.Gen.Pre_finite_inputs
import proofs.«131441_j11166914970000_2_alg».proof.Proof.RefRun
import proofs.«131441_j11166914970000_2_alg».proof.Proof.RefRead
import proofs.«131441_j11166914970000_2_alg».proof.Proof.Bits.Run
import proofs.«131441_j11166914970000_2_alg».proof.Proof.Ideal.Run
import proofs.«131441_j11166914970000_2_alg».proof.Proof.Ideal.Result
import proofs.«131441_j11166914970000_2_alg».proof.Proof.Reference
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

theorem preserves : Cert.preserves_Kernel_KernelIdeal := trivial

/-- Both idealized programs end with the masked mean of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.MaskedMean.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Hand.run_value m ρ, ?_⟩
  refine (θ_run Cert.ReferenceIdeal.defs _ _).mono (fun _ h c => ⟨?_, (h c).2⟩) (Cert.ReferenceIdeal.ValueP.run (F := Ideal) m' ρ')
  rw [(h c).1, Cert.ReferenceIdeal.ReadP.val_main_v12_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
